-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v46) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_arg8 : FVec F S512 .f32) (main_arg9 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S512 .f32) (main_arg5 : FVec F S512 .f32) (main_arg6 : FVec F S512 .f32) (main_arg7 : FVec F S512 .f32) (main_arg8 : FVec F S512 .f32) (main_arg9 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_v33

def fn {F : FTy → Type} [FloatOps F] (main_arg0 : FVec F S32768x512 .f32) (main_arg1 : FVec F S32768x512 .f32) (main_arg2 : FVec F S512x512 .f32) (main_arg3 : FVec F S512x512 .f32) (main_arg4 : FVec F S512 .f32) (main_arg5 : FVec F S512 .f32) (main_arg6 : FVec F S512 .f32) (main_arg7 : FVec F S512 .f32) (main_arg8 : FVec F S512 .f32) (main_arg9 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_v13 main_v16
-- ==== Kernel.lean ====
abbrev S32768x512 : Shape := ⟨2, ![32768, 512]⟩
abbrev S512x512 : Shape := ⟨2, ![512, 512]⟩
abbrev S512 : Shape := ⟨1, ![512]⟩
abbrev S1x512 : Shape := ⟨2, ![1, 512]⟩
abbrev S2x512x512 : Shape := ⟨3, ![2, 512, 512]⟩
abbrev S1024x512 : Shape := ⟨2, ![1024, 512]⟩
abbrev S1x512x512 : Shape := ⟨3, ![1, 512, 512]⟩
abbrev S1024 : Shape := ⟨1, ![1024]⟩
abbrev S1024x1 : Shape := ⟨2, ![1024, 1]⟩
abbrev S512x1 : Shape := ⟨2, ![512, 1]⟩
abbrev S_ : Shape := ⟨0, ![]⟩

abbrev nBuf : Space → Nat
  | .hbm => 63
  | .vmem => 18
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S32768x512, .f32⟩
  | .hbm, ⟨15, _⟩ => ⟨S2x512x512, .f32⟩
  | .hbm, ⟨16, _⟩ => ⟨S2x512x512, .f32⟩
  | .hbm, ⟨17, _⟩ => ⟨S1x512x512, .f32⟩
  | .hbm, ⟨18, _⟩ => ⟨S512x512, .f32⟩
  | .hbm, ⟨19, _⟩ => ⟨S1x512x512, .f32⟩
  | .hbm, ⟨20, _⟩ => ⟨S512x512, .f32⟩
  | .hbm, ⟨21, _⟩ => ⟨S512x512, .f32⟩
  | .hbm, ⟨22, _⟩ => ⟨S1x512x512, .f32⟩
  | .hbm, ⟨23, _⟩ => ⟨S512x512, .f32⟩
  | .hbm, ⟨24, _⟩ => ⟨S1x512x512, .f32⟩
  | .hbm, ⟨25, _⟩ => ⟨S512x512, .f32⟩
  | .hbm, ⟨26, _⟩ => ⟨S512x512, .f32⟩
  | .hbm, ⟨27, _⟩ => ⟨S1x512, .f32⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S512x1, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S1x512, .f32⟩
  | .hbm, ⟨36, _⟩ => ⟨S512x512, .f32⟩
  | .hbm, ⟨37, _⟩ => ⟨S512x512, .f32⟩
  | .hbm, ⟨38, _⟩ => ⟨S512x512, .f32⟩
  | .hbm, ⟨39, _⟩ => ⟨S512x1, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S512x512, .f32⟩
  | .hbm, ⟨44, _⟩ => ⟨S_, .f32⟩
  | .hbm, ⟨45, _⟩ => ⟨S512, .f32⟩
  | .hbm, ⟨46, _⟩ => ⟨S512x1, .f32⟩
  | .hbm, ⟨47, _⟩ => ⟨S512x1, .f32⟩
  | .hbm, ⟨48, _⟩ => ⟨S_, .f32⟩
  | .hbm, ⟨49, _⟩ => ⟨S512x1, .f32⟩
  | .hbm, ⟨50, _⟩ => ⟨S512x1, .f32⟩
  | .hbm, ⟨51, _⟩ => ⟨S512x512, .f32⟩
  | .hbm, ⟨52, _⟩ => ⟨S512x512, .f32⟩
  | .hbm, ⟨53, _⟩ => ⟨S512x512, .f32⟩
  | .hbm, ⟨54, _⟩ => ⟨S_, .f32⟩
  | .hbm, ⟨55, _⟩ => ⟨S512, .f32⟩
  | .hbm, ⟨56, _⟩ => ⟨S512x1, .f32⟩
  | .hbm, ⟨57, _⟩ => ⟨S512x1, .f32⟩
  | .hbm, ⟨58, _⟩ => ⟨S_, .f32⟩
  | .hbm, ⟨59, _⟩ => ⟨S512x1, .f32⟩
  | .hbm, ⟨60, _⟩ => ⟨S512x1, .f32⟩
  | .hbm, ⟨61, _⟩ => ⟨S512x512, .f32⟩
  | .hbm, ⟨62, _⟩ => ⟨S512x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S512x512, .bf16⟩
  | .local _ .vmem, ⟨17, _⟩ => ⟨S512x512, .bf16⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_1 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_2 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  shapeCasts_S512_S1x512 : S512.ShapeCasts S1x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1024x512_S1024 : S1024x512.Reduces [1] S1024
  shapeCasts_S1024_S1024x1 : S1024.ShapeCasts S1024x1
  broadcasts_S1024x1_S1024x512 : S1024x1.Broadcasts S1024x512
  broadcasts_S1x512_S1024x512 : S1x512.Broadcasts S1024x512
  slices_S2x512x512_S1x512x512_0_0_0 : S2x512x512.Slices ![0, 0, 0] S1x512x512
  slices_S2x512x512_S1x512x512_1_0_0 : S2x512x512.Slices ![1, 0, 0] S1x512x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  reducesTo_S512x512_S512_d1 : S512x512.ReducesTo [1] S512
  h_S_ : 0 < S_.numel
  bcast_S_S512x1 : S_.BroadcastsInDim S512x1 (![] : Fin 0 → Fin S512x1.rank)
  dot_S1024x512_S512x512_S1024x512_1_0_0_1_n_n_wf : DotDims.WF S1024x512 S512x512 S1024x512 [1] [0] [0] [1] [] []
  dot_S1024x512_S1024x512_S512x512_0_0_1_1_n_n_wf : DotDims.WF S1024x512 S1024x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S32768x512.size a
  hwx0_8 : ∀ i : grid0.Coords, EltTy.bits .f32 = 32 ∨ (Rect.block (s := S32768x512) S1024x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x512.size a ≤ S2x512x512.size a
  hwx0_9 : ∀ i : grid0.Coords, EltTy.bits .f32 = 32 ∨ (Rect.block (s := S2x512x512) S1x512x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x512.size a ≤ S2x512x512.size a
  hwx0_10 : ∀ i : grid0.Coords, EltTy.bits .f32 = 32 ∨ (Rect.block (s := S2x512x512) S1x512x512.size (cc0_transform_10 i) (hinb0_10 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S1024x512_S512x512_0_0_1_1_n_n : DotDims S1024x512 S1024x512 S512x512 where
  lhsContracting := [0]
  rhsContracting := [0]
  lhsNonContracting := [1]
  rhsNonContracting := [1]
  lhsBatch := []
  rhsBatch := []
  wf := dot_S1024x512_S1024x512_S512x512_0_0_1_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_0) S1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_1) S1x512x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_2) S1x512x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x512 : Shape := ⟨2, ![512, 512]⟩
abbrev S512 : Shape := ⟨1, ![512]⟩
abbrev S_ : Shape := ⟨0, ![]⟩
abbrev S32768 : Shape := ⟨1, ![32768]⟩
abbrev S32768x1 : Shape := ⟨2, ![32768, 1]⟩
abbrev S1x512 : Shape := ⟨2, ![1, 512]⟩
abbrev S512x1 : Shape := ⟨2, ![512, 1]⟩

abbrev nBuf : Space → Nat
  | .hbm => 112
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S32768x512, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x512, .f32⟩
  | .hbm, ⟨27, _⟩ => ⟨S32768x512, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x512, .f32⟩
  | .hbm, ⟨33, _⟩ => ⟨S32768x512, .f32⟩
  | .hbm, ⟨34, _⟩ => ⟨S1x512, .f32⟩
  | .hbm, ⟨35, _⟩ => ⟨S32768x512, .f32⟩
  | .hbm, ⟨36, _⟩ => ⟨S32768x512, .f32⟩
  | .hbm, ⟨37, _⟩ => ⟨S1x512, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S_, .f32⟩
  | .hbm, ⟨43, _⟩ => ⟨S32768x512, .f32⟩
  | .hbm, ⟨44, _⟩ => ⟨S32768x512, .f32⟩
  | .hbm, ⟨45, _⟩ => ⟨S_, .f32⟩
  | .hbm, ⟨46, _⟩ => ⟨S32768, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S_, .f32⟩
  | .hbm, ⟨55, _⟩ => ⟨S32768, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x512, .f32⟩
  | .hbm, ⟨61, _⟩ => ⟨S32768x512, .f32⟩
  | .hbm, ⟨62, _⟩ => ⟨S_, .f32⟩
  | .hbm, ⟨63, _⟩ => ⟨S32768x1, .f32⟩
  | .hbm, ⟨64, _⟩ => ⟨S32768x1, .f32⟩
  | .hbm, ⟨65, _⟩ => ⟨S32768x1, .f32⟩
  | .hbm, ⟨66, _⟩ => ⟨S32768x512, .f32⟩
  | .hbm, ⟨67, _⟩ => ⟨S32768x512, .f32⟩
  | .hbm, ⟨68, _⟩ => ⟨S1x512, .f32⟩
  | .hbm, ⟨69, _⟩ => ⟨S32768x512, .f32⟩
  | .hbm, ⟨70, _⟩ => ⟨S32768x512, .f32⟩
  | .hbm, ⟨71, _⟩ => ⟨S1x512, .f32⟩
  | .hbm, ⟨72, _⟩ => ⟨S32768x512, .f32⟩
  | .hbm, ⟨73, _⟩ => ⟨S32768x512, .f32⟩
  | .hbm, ⟨74, _⟩ => ⟨S512x512, .f32⟩
  | .hbm, ⟨75, _⟩ => ⟨S1x512, .f32⟩
  | .hbm, ⟨76, _⟩ => ⟨S512x512, .f32⟩
  | .hbm, ⟨77, _⟩ => ⟨S512x512, .f32⟩
  | .hbm, ⟨78, _⟩ => ⟨S512x512, .f32⟩
  | .hbm, ⟨79, _⟩ => ⟨S1x512, .f32⟩
  | .hbm, ⟨80, _⟩ => ⟨S512x512, .f32⟩
  | .hbm, ⟨81, _⟩ => ⟨S512x512, .f32⟩
  | .hbm, ⟨82, _⟩ => ⟨S512x512, .f32⟩
  | .hbm, ⟨83, _⟩ => ⟨S512x1, .f32⟩
  | .hbm, ⟨84, _⟩ => ⟨S512x512, .f32⟩
  | .hbm, ⟨85, _⟩ => ⟨S512x512, .f32⟩
  | .hbm, ⟨86, _⟩ => ⟨S512x512, .f32⟩
  | .hbm, ⟨87, _⟩ => ⟨S512x512, .f32⟩
  | .hbm, ⟨88, _⟩ => ⟨S_, .f32⟩
  | .hbm, ⟨89, _⟩ => ⟨S512, .f32⟩
  | .hbm, ⟨90, _⟩ => ⟨S512x1, .f32⟩
  | .hbm, ⟨91, _⟩ => ⟨S512x1, .f32⟩
  | .hbm, ⟨92, _⟩ => ⟨S_, .f32⟩
  | .hbm, ⟨93, _⟩ => ⟨S512x1, .f32⟩
  | .hbm, ⟨94, _⟩ => ⟨S512x1, .f32⟩
  | .hbm, ⟨95, _⟩ => ⟨S512x512, .f32⟩
  | .hbm, ⟨96, _⟩ => ⟨S512x512, .f32⟩
  | .hbm, ⟨97, _⟩ => ⟨S512x512, .f32⟩
  | .hbm, ⟨98, _⟩ => ⟨S512x1, .f32⟩
  | .hbm, ⟨99, _⟩ => ⟨S512x512, .f32⟩
  | .hbm, ⟨100, _⟩ => ⟨S512x512, .f32⟩
  | .hbm, ⟨101, _⟩ => ⟨S512x512, .f32⟩
  | .hbm, ⟨102, _⟩ => ⟨S512x512, .f32⟩
  | .hbm, ⟨103, _⟩ => ⟨S_, .f32⟩
  | .hbm, ⟨104, _⟩ => ⟨S512, .f32⟩
  | .hbm, ⟨105, _⟩ => ⟨S512x1, .f32⟩
  | .hbm, ⟨106, _⟩ => ⟨S512x1, .f32⟩
  | .hbm, ⟨107, _⟩ => ⟨S_, .f32⟩
  | .hbm, ⟨108, _⟩ => ⟨S512x1, .f32⟩
  | .hbm, ⟨109, _⟩ => ⟨S512x1, .f32⟩
  | .hbm, ⟨110, _⟩ => ⟨S512x512, .f32⟩
  | .hbm, ⟨111, _⟩ => ⟨S512x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_cst : Ref sig .tc := ⟨.hbm, 42, rfl⟩
abbrev main_call0_v0 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_9 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_10 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_11 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_12 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩

abbrev nD : Nat := 1
abbrev τ : Topo := Topo.v7x

variable {F : FTy → Type} [FloatOps F]

class Facts₀ : Prop where
  reducesTo_S32768x512_S32768_d1 : S32768x512.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x512_0_1 : S32768x1.BroadcastsInDim S32768x512 (![0, 1] : Fin 2 → Fin S32768x512.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S1x512_S512x512_0_1 : S1x512.BroadcastsInDim S512x512 (![0, 1] : Fin 2 → Fin S512x512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  reducesTo_S512x512_S512_d1 : S512x512.ReducesTo [1] S512
  bcast_S_S512x1 : S_.BroadcastsInDim S512x1 (![] : Fin 0 → Fin S512x1.rank)
  dot_S32768x512_S512x512_S32768x512_1_0_0_1_n_n_wf : DotDims.WF S32768x512 S512x512 S32768x512 [1] [0] [0] [1] [] []
  dot_S32768x512_S32768x512_S512x512_0_0_1_1_n_n_wf : DotDims.WF S32768x512 S32768x512 S512x512 [0] [0] [1] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S32768x512_S512x512_0_0_1_1_n_n : DotDims S32768x512 S32768x512 S512x512 where
  lhsContracting := [0]
  rhsContracting := [0]
  lhsNonContracting := [1]
  rhsNonContracting := [1]
  lhsBatch := []
  rhsBatch := []
  wf := dot_S32768x512_S32768x512_S512x512_0_0_1_1_n_n_wf

class Facts : Prop extends Facts₀ where

variable [Facts]
-- ==== Proof.LibBlockSums.lean ====
/-
  A sum over consecutive rows, cut into blocks.

  The rows 0 … A·B − 1 are A consecutive blocks of B rows, row a·B + b being row b of block a; a sum over the rows is the
  sum over the blocks of the sums over each block's rows, and so is a sum restricted to the rows that satisfy a
  predicate (the rows of one class): it is the sum over the blocks of the sums over each block's rows of the class.
  The same from a base row on, and for a stretch of rows cut in two. These are the regroupings behind "every worker
  sums its own rows, the partial sums are added up": no order or grouping is left in a sum of a commutative monoid.
-/
import Idealize.ShloMosaic.PureOps.Ideal

open scoped BigOperators

namespace Cert.LibBlockSums

variable {M : Type*} [AddCommMonoid M]

/-- A·B consecutive rows as A blocks of B. -/
theorem sum_range_mul (A B : ℕ) (f : ℕ → M) :
    ∑ n ∈ Finset.range (A * B), f n = ∑ a ∈ Finset.range A, ∑ b ∈ Finset.range B, f (a * B + b) := by
  induction A with
  | zero => simp
  | succ A ih =>
    rw [Nat.succ_mul, Finset.sum_range_add, ih, Finset.sum_range_succ]

/-- The rows of a class among A·B consecutive rows, block by block. -/
theorem sum_filter_range_mul (A B : ℕ) (p : ℕ → Prop) [DecidablePred p] (f : ℕ → M) :
    ∑ n ∈ (Finset.range (A * B)).filter p, f n
      = ∑ a ∈ Finset.range A, ∑ b ∈ (Finset.range B).filter (fun b => p (a * B + b)), f (a * B + b) := by
  rw [Finset.sum_filter, sum_range_mul]
  refine Finset.sum_congr rfl fun a _ => ?_
  rw [Finset.sum_filter]

/-- The same for the rows base … base + A·B − 1. -/
theorem sum_filter_range_mul_from (base A B : ℕ) (p : ℕ → Prop) [DecidablePred p] (f : ℕ → M) :
    ∑ n ∈ (Finset.range (A * B)).filter (fun n => p (base + n)), f (base + n)
      = ∑ a ∈ Finset.range A, ∑ b ∈ (Finset.range B).filter (fun b => p (base + (a * B + b))), f (base + (a * B + b)) :=
  sum_filter_range_mul A B (fun n => p (base + n)) (fun n => f (base + n))

/-- A stretch of rows cut in two: the first N₁ rows and the N₂ rows after them. -/
theorem sum_filter_range_add (N₁ N₂ : ℕ) (p : ℕ → Prop) [DecidablePred p] (f : ℕ → M) :
    ∑ n ∈ (Finset.range (N₁ + N₂)).filter p, f n
      = ∑ n ∈ (Finset.range N₁).filter p, f n + ∑ n ∈ (Finset.range N₂).filter (fun n => p (N₁ + n)), f (N₁ + n) := by
  rw [Finset.sum_filter, Finset.sum_range_add, Finset.sum_filter, Finset.sum_filter]

/-- A sum over the rows of a class as a sum over all rows of the row's term or zero: the form an accumulating scatter
    reads at one element. -/
theorem sum_filter_eq_sum_ite (N : ℕ) (p : ℕ → Prop) [DecidablePred p] (f : ℕ → M) :
    ∑ n ∈ (Finset.range N).filter p, f n = ∑ n ∈ Finset.range N, (if p n then f n else 0) :=
  Finset.sum_filter _ _

/-- A sum over `Fin N` is the sum over the first N natural numbers of any extension of the summand. -/
theorem sum_fin_eq_sum_range (N : ℕ) (f : ℕ → M) : ∑ n : Fin N, f n.val = ∑ n ∈ Finset.range N, f n :=
  Fin.sum_univ_eq_sum_range f N

end Cert.LibBlockSums
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibRmsNorm.lean ====
/-
  Root-mean-square normalisation of the rows of a matrix, read one row at a time on the extended reals, over any sizes.

  A row r of N entries is scaled by s(r) = rsqrt((Σ_k r_k · r_k) / c + e), where c and e are the numbers two given 32-bit
  words encode (the row length and a small offset, as the program spells them), and then multiplied entry by entry
  by a gain row g:   rowNorm r g q = r_q · s(r) · g_q.

  The same function is computed two ways. On the vector unit: square, sum along the lanes from zero, lay the sums
  out as a column, divide, add, take the reciprocal square root, spread the column along the lanes, multiply; the
  gain row laid out as a row and spread down the sublanes. On the host: square, reduce-add over the last axis from a
  scalar zero, broadcast to a column, divide by a broadcast scalar, add a broadcast scalar, reciprocal square root,
  broadcast along the last axis, multiply; the gain broadcast to a row and then down the rows. Both, read at
  row p, are rowNorm of row p of the operand. Nothing here needs the entries to be finite: both sides apply the same
  operations to the same sums.

  Also here: the vocabulary of rows (row p of a matrix, a vector as a function of its coordinate, a matrix as a function
  of two coordinates), and a row times a matrix.
-/
import Idealize.ShloMosaic.PureOps.Ideal.Laws
import Idealize.ShloMosaic.Lib.Pipeline.Value
import Idealize.ShloMosaic.Lib.ValueIdx
import proofs.«151966_j20761871909484_2_alg».proof.Proof.LibColRowBroadcast

noncomputable section

open scoped BigOperators

namespace Cert.RmsNorm

open Idealize.ShloMosaic Idealize.ShloMosaic.ValueIdx

/-! ## Rows -/

/-- Row `p` of a matrix, as a function of the column. -/
def row {M N : ℕ} (a : (⟨2, ![M, N]⟩ : Shape).Idx → EReal) (p : Fin M) : Fin N → EReal := fun k => a (ix2 p k)

/-- A vector as a function of its coordinate. -/
def vec {N : ℕ} (g : (⟨1, ![N]⟩ : Shape).Idx → EReal) : Fin N → EReal := fun k => g (ix1 k)

/-- A matrix as a function of its two coordinates. -/
def mat {K N : ℕ} (w : (⟨2, ![K, N]⟩ : Shape).Idx → EReal) : Fin K → Fin N → EReal := fun k q => w (ix2 k q)

/-- A row times a matrix: entry q is Σ_k r_k · w_{k q}. -/
def rowMat {K N : ℕ} (r : Fin K → EReal) (w : Fin K → Fin N → EReal) : Fin N → EReal := fun q => ∑ k, r k * w k q

/-- The scale of a row: the reciprocal square root of (Σ_k r_k² divided by the number `cN` encodes, plus the number
    `ce` encodes). -/
def scale {N : ℕ} (cN ce : BitVec 32) (r : Fin N → EReal) : EReal :=
  Ideal.rsqrt (Ideal.div (∑ k, r k * r k) (Ideal.ofBits .f32 cN) + Ideal.ofBits .f32 ce)

/-- A row normalised by its scale and multiplied entry by entry by a gain row. -/
def rowNorm {N : ℕ} (cN ce : BitVec 32) (r g : Fin N → EReal) : Fin N → EReal := fun q => r q * scale cN ce r * g q

/-- Rows of equal matrices' sums: row p of a pointwise sum is the sum of the rows. -/
theorem row_addf {M N : ℕ} (a b : FVec Ideal ⟨2, ![M, N]⟩ .f32) (p : Fin M) :
    row (addf a b) p = fun q => row a p q + row b p q := rfl

/-! ## On the vector unit -/

/-- The reduced index `p` with lane `k` put back is (p, k). -/
theorem lift_lane {M N : ℕ} (h : (⟨2, ![M, N]⟩ : Shape).Reduces [1] (⟨1, ![M]⟩ : Shape)) (p : Fin M)
    (k : Fin ((⟨2, ![M, N]⟩ : Shape).size 1)) : h.lift (ix1 p) k = ix2 p (⟨k.val, k.isLt⟩ : Fin N) := by
  funext c; apply Fin.ext
  fin_cases c <;> rfl

/-- A sum along the lanes from zero, at row `p`, is the sum of the row. -/
theorem laneSum_apply {M N : ℕ} (src : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ) (p : Fin M) :
    multiReduction .add [1] ⟨1, ![M]⟩ src 0x00000000#32 hr hφ hacc (ix1 p) = ∑ k : Fin N, src (ix2 p k) := by
  refine (Ideal.multiReduction_add_single src 0x00000000#32 hr hφ hacc (ix1 p)).trans ?_
  exact Finset.sum_congr rfl fun k _ => congrArg src (lift_lane hr p k)

/-- The column of scales as the vector unit computes it. -/
def colScale {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) : FVec Ideal ⟨2, ![M, 1]⟩ .f32 :=
  rsqrt (addf (divf (shapeCast ⟨2, ![M, 1]⟩ (multiReduction .add [1] ⟨1, ![M]⟩ (mulf a a) 0x00000000#32 hr hφ hacc) hc)
    (broadcast ⟨2, ![M, 1]⟩ (Scalar.ofBits .f32 cN))) (broadcast ⟨2, ![M, 1]⟩ (Scalar.ofBits .f32 ce)))

/-- The column of scales at row `p` is the scale of row `p`. -/
theorem colScale_apply {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (p : Fin M) (z : Fin 1) :
    colScale cN ce a hr hφ hacc hc (ix2 p z) = scale cN ce (row a p) := by
  have h1 : shapeCast ⟨2, ![M, 1]⟩ (multiReduction .add [1] ⟨1, ![M]⟩ (mulf a a) 0x00000000#32 hr hφ hacc) hc (ix2 p z)
      = ∑ k : Fin N, row a p k * row a p k :=
    (Cert.ColRowBroadcast.colCast_apply _ hc p z).trans (laneSum_apply (mulf a a) hr hφ hacc p)
  exact congrArg (fun s => Ideal.rsqrt (Ideal.div s (Ideal.ofBits .f32 cN) + Ideal.ofBits .f32 ce)) h1

/-- Root-mean-square normalisation of the rows of `a` with gain `g`, as the vector unit computes it. -/
def vectorNorm {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) :
    FVec Ideal ⟨2, ![M, N]⟩ .f32 :=
  mulf (mulf a (broadcastTo ⟨2, ![M, N]⟩ (colScale cN ce a hr hφ hacc hc) hb))
    (broadcastTo ⟨2, ![M, N]⟩ (shapeCast ⟨2, ![1, N]⟩ g hg) hgb)

/-- Row `p` of the vector unit's normalisation is rowNorm of row `p`. -/
theorem vectorNorm_row {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) (p : Fin M) :
    row (vectorNorm cN ce a g hr hφ hacc hc hb hg hgb) p = rowNorm cN ce (row a p) (vec g) := by
  funext q
  have hs : broadcastTo ⟨2, ![M, N]⟩ (colScale cN ce a hr hφ hacc hc) hb (ix2 p q) = scale cN ce (row a p) :=
    (Cert.ColRowBroadcast.colBroadcast_apply _ hb p q).trans (colScale_apply cN ce a hr hφ hacc hc p 0)
  have hq : broadcastTo ⟨2, ![M, N]⟩ (shapeCast ⟨2, ![1, N]⟩ g hg) hgb (ix2 p q) = vec g q :=
    (Cert.ColRowBroadcast.rowBroadcast_apply _ hgb p q).trans (Cert.ColRowBroadcast.rowCast_apply g hg 0 q)
  show a (ix2 p q) * broadcastTo ⟨2, ![M, N]⟩ (colScale cN ce a hr hφ hacc hc) hb (ix2 p q)
      * broadcastTo ⟨2, ![M, N]⟩ (shapeCast ⟨2, ![1, N]⟩ g hg) hgb (ix2 p q) = _
  rw [hs, hq]
  rfl

/-! ## On the host -/

/-- The host's sum over the last axis from a scalar zero, at row `p`, is the sum of the row. -/
theorem hostSum_apply {M N : ℕ} (src : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel) (p : Fin M) :
    Host.reduceAdd src (constant (F := Ideal) ⟨0, ![]⟩ .f32 0x00000000#32) hrt h0 (ix1 p) = ∑ k : Fin N, src (ix2 p k) := by
  show Ideal.hostReduceAdd hrt src (Ideal.ofBits .f32 0x00000000#32) (ix1 p) = _
  rw [Ideal.hostReduceAdd_single hrt hr, Ideal.ofBits_zero_f32, zero_add]
  exact Finset.sum_congr rfl fun k _ => congrArg src (lift_lane hr p k)

/-- A scalar broadcast to any shape reads the scalar everywhere. -/
theorem scalarBroadcast_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun a => a.elim0)

/-- A vector of `a` entries broadcast to a column [a, 1] reads, at (p, 0), entry `p`. -/
theorem hostCol_apply {α : Type} {a : ℕ} (u : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h u (ix2 p z) = u (ix1 p) := by
  refine broadcastInDim_apply _ h u (ix2 p z) (ix1 p) fun c => ?_
  match c with
  | ⟨0, _⟩ =>
    show p.val = if a = 1 then 0 else p.val
    split
    · have := p.isLt; omega
    · rfl

/-- A column [a, 1] broadcast along the last axis to [a, b] reads, at (p, q), the column at (p, 0). -/
theorem hostColBroadcast_apply {α : Type} {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply _ h w (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A vector of `b` entries broadcast to a row [1, b] reads, at (0, q), entry `q`. -/
theorem hostRow_apply {α : Type} {b : ℕ} (u : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h u (ix2 z q) = u (ix1 q) := by
  refine broadcastInDim_apply _ h u (ix2 z q) (ix1 q) fun c => ?_
  match c with
  | ⟨0, _⟩ =>
    show q.val = if b = 1 then 0 else q.val
    split
    · have := q.isLt; omega
    · rfl

/-- A row [1, b] broadcast down the first axis to [a, b] reads, at (p, q), the row at (0, q). -/
theorem hostRowBroadcast_apply {α : Type} {a b : ℕ} (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply _ h w (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

/-- The column of scales as the host computes it. -/
def hostColScale {M N : ℕ} (cN ce : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) : FVec Ideal ⟨2, ![M, 1]⟩ .f32 :=
  Host.rsqrt (addf (Host.divf
      (broadcastInDim ⟨2, ![M, 1]⟩ ![0] hb1 (Host.reduceAdd (mulf a a) (constant (F := Ideal) ⟨0, ![]⟩ .f32 0x00000000#32) hrt h0))
      (broadcastInDim ⟨2, ![M, 1]⟩ ![] hbs (constant (F := Ideal) ⟨0, ![]⟩ .f32 cN)))
    (broadcastInDim ⟨2, ![M, 1]⟩ ![] hbs (constant (F := Ideal) ⟨0, ![]⟩ .f32 ce)))

/-- The host's column of scales at row `p` is the scale of row `p`. -/
theorem hostColScale_apply {M N : ℕ} (cN ce : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) (p : Fin M) (z : Fin 1) :
    hostColScale cN ce a hrt h0 hb1 hbs (ix2 p z) = scale cN ce (row a p) := by
  have h1 : broadcastInDim ⟨2, ![M, 1]⟩ ![0] hb1
        (Host.reduceAdd (mulf a a) (constant (F := Ideal) ⟨0, ![]⟩ .f32 0x00000000#32) hrt h0) (ix2 p z)
      = ∑ k : Fin N, row a p k * row a p k :=
    (hostCol_apply _ hb1 p z).trans (hostSum_apply (mulf a a) hrt hr h0 p)
  have h2 : broadcastInDim ⟨2, ![M, 1]⟩ ![] hbs (constant (F := Ideal) ⟨0, ![]⟩ .f32 cN) (ix2 p z) = Ideal.ofBits .f32 cN :=
    scalarBroadcast_apply _ hbs (ix2 p z)
  have h3 : broadcastInDim ⟨2, ![M, 1]⟩ ![] hbs (constant (F := Ideal) ⟨0, ![]⟩ .f32 ce) (ix2 p z) = Ideal.ofBits .f32 ce :=
    scalarBroadcast_apply _ hbs (ix2 p z)
  show Ideal.rsqrt (Ideal.div
      (broadcastInDim ⟨2, ![M, 1]⟩ ![0] hb1 (Host.reduceAdd (mulf a a) (constant (F := Ideal) ⟨0, ![]⟩ .f32 0x00000000#32) hrt h0) (ix2 p z))
      (broadcastInDim ⟨2, ![M, 1]⟩ ![] hbs (constant (F := Ideal) ⟨0, ![]⟩ .f32 cN) (ix2 p z))
    + broadcastInDim ⟨2, ![M, 1]⟩ ![] hbs (constant (F := Ideal) ⟨0, ![]⟩ .f32 ce) (ix2 p z)) = _
  rw [h1, h2, h3]
  rfl

/-- Root-mean-square normalisation of the rows of `a` with gain `g`, as the host computes it. -/
def hostNorm {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) : FVec Ideal ⟨2, ![M, N]⟩ .f32 :=
  mulf (mulf a (broadcastInDim ⟨2, ![M, N]⟩ ![0, 1] hbc (hostColScale cN ce a hrt h0 hb1 hbs)))
    (broadcastInDim ⟨2, ![M, N]⟩ ![0, 1] hgb (broadcastInDim ⟨2, ![1, N]⟩ ![1] hg g))

/-- Row `p` of the host's normalisation is rowNorm of row `p`. -/
theorem hostNorm_row {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) (p : Fin M) :
    row (hostNorm cN ce a g hrt h0 hb1 hbs hbc hg hgb) p = rowNorm cN ce (row a p) (vec g) := by
  funext q
  have hs : broadcastInDim ⟨2, ![M, N]⟩ ![0, 1] hbc (hostColScale cN ce a hrt h0 hb1 hbs) (ix2 p q) = scale cN ce (row a p) :=
    (hostColBroadcast_apply _ hbc p q).trans (hostColScale_apply cN ce a hrt hr h0 hb1 hbs p 0)
  have hq : broadcastInDim ⟨2, ![M, N]⟩ ![0, 1] hgb (broadcastInDim ⟨2, ![1, N]⟩ ![1] hg g) (ix2 p q) = vec g q :=
    (hostRowBroadcast_apply _ hgb p q).trans (hostRow_apply g hg 0 q)
  show a (ix2 p q) * broadcastInDim ⟨2, ![M, N]⟩ ![0, 1] hbc (hostColScale cN ce a hrt h0 hb1 hbs) (ix2 p q)
      * broadcastInDim ⟨2, ![M, N]⟩ ![0, 1] hgb (broadcastInDim ⟨2, ![1, N]⟩ ![1] hg g) (ix2 p q) = _
  rw [hs, hq]
  rfl

end Cert.RmsNorm

end
-- ==== Proof.LibLayerNorm.lean ====
/-
  Layer normalisation of the rows of a matrix, read one row at a time on the extended reals, over any sizes.

  A row r of N entries has mean μ(r) = (Σ_k r_k) / c, where c is the number a given 32-bit word encodes (the row length as
  the program spells it); the centred row is d_k = r_k − μ(r); and with the scale s(d) = rsqrt((Σ_k d_k · d_k) / c + e) of the
  centred row (e a second word: the small offset), a gain row g and a bias row b,

      rowLN r g b q = d_q · s(d) · g_q + b_q.

  The same function is computed two ways. On the vector unit: sum along the lanes from zero, lay the sums out as a
  column, divide, spread the column along the lanes and subtract; square, sum, divide, add the offset, take the
  reciprocal square root, spread, multiply; the gain and bias given as one-row matrices and spread down the sublanes.
  On the host: reduce-add over the last axis from a scalar zero, broadcast to a column, divide by a broadcast scalar,
  broadcast along the last axis and subtract; and so on; the gain and bias vectors broadcast to a row and then down the
  rows. Both, read at row p, are rowLN of row p of the operand. Nothing here needs the entries to be finite: both
  sides apply the same operations to the same sums.
-/
import Idealize.ShloMosaic.PureOps.Ideal.Laws
import Idealize.ShloMosaic.Lib.Pipeline.Value
import Idealize.ShloMosaic.Lib.ValueIdx
import proofs.«151966_j20761871909484_2_alg».proof.Proof.LibColRowBroadcast
import proofs.«151966_j20761871909484_2_alg».proof.Proof.LibRmsNorm

noncomputable section

open scoped BigOperators

namespace Cert.LayerNorm

open Idealize.ShloMosaic Idealize.ShloMosaic.ValueIdx Cert.RmsNorm

/-! ## The function -/

/-- The mean of a row: its sum divided by the number `cN` encodes. -/
def mean {N : ℕ} (cN : BitVec 32) (r : Fin N → EReal) : EReal := Ideal.div (∑ k, r k) (Ideal.ofBits .f32 cN)

/-- A row with its mean subtracted from every entry. -/
def centred {N : ℕ} (cN : BitVec 32) (r : Fin N → EReal) : Fin N → EReal := fun k => r k - mean cN r

/-- Layer normalisation of a row: the centred row times its scale, times the gain, plus the bias. -/
def rowLN {N : ℕ} (cN ce : BitVec 32) (r g b : Fin N → EReal) : Fin N → EReal :=
  fun q => centred cN r q * scale cN ce (centred cN r) * g q + b q

/-! ## On the vector unit -/

/-- The column of means as the vector unit computes it. -/
def colMean {M N : ℕ} (cN : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) : FVec Ideal ⟨2, ![M, 1]⟩ .f32 :=
  divf (shapeCast ⟨2, ![M, 1]⟩ (multiReduction .add [1] ⟨1, ![M]⟩ a 0x00000000#32 hr hφ hacc) hc)
    (broadcast ⟨2, ![M, 1]⟩ (Scalar.ofBits .f32 cN))

/-- The column of means at row `p` is the mean of row `p`. -/
theorem colMean_apply {M N : ℕ} (cN : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (p : Fin M) (z : Fin 1) :
    colMean cN a hr hφ hacc hc (ix2 p z) = mean cN (row a p) := by
  have h1 : shapeCast ⟨2, ![M, 1]⟩ (multiReduction .add [1] ⟨1, ![M]⟩ a 0x00000000#32 hr hφ hacc) hc (ix2 p z)
      = ∑ k : Fin N, row a p k :=
    (Cert.ColRowBroadcast.colCast_apply _ hc p z).trans (laneSum_apply a hr hφ hacc p)
  exact congrArg (fun s => Ideal.div s (Ideal.ofBits .f32 cN)) h1

/-- The matrix with each row's mean subtracted, as the vector unit computes it. -/
def vectorCentred {M N : ℕ} (cN : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩) :
    FVec Ideal ⟨2, ![M, N]⟩ .f32 :=
  subf a (broadcastTo ⟨2, ![M, N]⟩ (colMean cN a hr hφ hacc hc) hb)

/-- Row `p` of it is row `p` centred. -/
theorem vectorCentred_row {M N : ℕ} (cN : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩) (p : Fin M) :
    row (vectorCentred cN a hr hφ hacc hc hb) p = centred cN (row a p) := by
  funext q
  have hm : broadcastTo ⟨2, ![M, N]⟩ (colMean cN a hr hφ hacc hc) hb (ix2 p q) = mean cN (row a p) :=
    (Cert.ColRowBroadcast.colBroadcast_apply _ hb p q).trans (colMean_apply cN a hr hφ hacc hc p 0)
  show a (ix2 p q) - broadcastTo ⟨2, ![M, N]⟩ (colMean cN a hr hφ hacc hc) hb (ix2 p q) = _
  rw [hm]
  rfl

/-- Layer normalisation of the rows of `a` with gain `g` and bias `bb` (one-row matrices), as the vector unit computes
    it. -/
def vectorLN {M N : ℕ} (cN ce : BitVec 32) (a : FVec Ideal ⟨2, ![M, N]⟩ .f32) (g bb : FVec Ideal ⟨2, ![1, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hgb : (⟨2, ![1, N]⟩ : Shape).Broadcasts ⟨2, ![M, N]⟩) : FVec Ideal ⟨2, ![M, N]⟩ .f32 :=
  addf (mulf (mulf (vectorCentred cN a hr hφ hacc hc hb)
      (broadcastTo ⟨2, ![M, N]⟩ (colScale cN ce (vectorCentred cN a hr hφ hacc hc hb) hr hφ hacc hc) hb))
      (broadcastTo ⟨2, ![M, N]⟩ g hgb))
    (broadcastTo ⟨2, ![M, N]⟩ bb hgb)

/-- Row `p` of the vector unit's layer normalisation is rowLN of row `p`. -/
theorem vectorLN_row {M N : ℕ} (cN ce : BitVec 32) (a : FVec Ideal ⟨2, ![M, N]⟩ .f32) (g bb : FVec Ideal ⟨2, ![1, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hgb : (⟨2, ![1, N]⟩ : Shape).Broadcasts ⟨2, ![M, N]⟩) (p : Fin M) :
    row (vectorLN cN ce a g bb hr hφ hacc hc hb hgb) p = rowLN cN ce (row a p) (row g 0) (row bb 0) := by
  funext q
  have hd : row (vectorCentred cN a hr hφ hacc hc hb) p = centred cN (row a p) := vectorCentred_row cN a hr hφ hacc hc hb p
  have hs : broadcastTo ⟨2, ![M, N]⟩ (colScale cN ce (vectorCentred cN a hr hφ hacc hc hb) hr hφ hacc hc) hb (ix2 p q)
      = scale cN ce (centred cN (row a p)) := by
    rw [Cert.ColRowBroadcast.colBroadcast_apply _ hb p q, colScale_apply cN ce _ hr hφ hacc hc p 0, hd]
  have hg : broadcastTo ⟨2, ![M, N]⟩ g hgb (ix2 p q) = row g 0 q := Cert.ColRowBroadcast.rowBroadcast_apply _ hgb p q
  have hbb : broadcastTo ⟨2, ![M, N]⟩ bb hgb (ix2 p q) = row bb 0 q := Cert.ColRowBroadcast.rowBroadcast_apply _ hgb p q
  show row (vectorCentred cN a hr hφ hacc hc hb) p q
      * broadcastTo ⟨2, ![M, N]⟩ (colScale cN ce (vectorCentred cN a hr hφ hacc hc hb) hr hφ hacc hc) hb (ix2 p q)
      * broadcastTo ⟨2, ![M, N]⟩ g hgb (ix2 p q) + broadcastTo ⟨2, ![M, N]⟩ bb hgb (ix2 p q) = _
  rw [hs, hg, hbb, hd]
  rfl

/-! ## On the host -/

/-- The column of means as the host computes it. -/
def hostColMean {M N : ℕ} (cN : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) : FVec Ideal ⟨2, ![M, 1]⟩ .f32 :=
  Host.divf
    (broadcastInDim ⟨2, ![M, 1]⟩ ![0] hb1 (Host.reduceAdd a (constant (F := Ideal) ⟨0, ![]⟩ .f32 0x00000000#32) hrt h0))
    (broadcastInDim ⟨2, ![M, 1]⟩ ![] hbs (constant (F := Ideal) ⟨0, ![]⟩ .f32 cN))

/-- The host's column of means at row `p` is the mean of row `p`. -/
theorem hostColMean_apply {M N : ℕ} (cN : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) (p : Fin M) (z : Fin 1) :
    hostColMean cN a hrt h0 hb1 hbs (ix2 p z) = mean cN (row a p) := by
  have h1 : broadcastInDim ⟨2, ![M, 1]⟩ ![0] hb1
        (Host.reduceAdd a (constant (F := Ideal) ⟨0, ![]⟩ .f32 0x00000000#32) hrt h0) (ix2 p z)
      = ∑ k : Fin N, row a p k :=
    (hostCol_apply _ hb1 p z).trans (hostSum_apply a hrt hr h0 p)
  have h2 : broadcastInDim ⟨2, ![M, 1]⟩ ![] hbs (constant (F := Ideal) ⟨0, ![]⟩ .f32 cN) (ix2 p z) = Ideal.ofBits .f32 cN :=
    scalarBroadcast_apply _ hbs (ix2 p z)
  show Ideal.div
      (broadcastInDim ⟨2, ![M, 1]⟩ ![0] hb1 (Host.reduceAdd a (constant (F := Ideal) ⟨0, ![]⟩ .f32 0x00000000#32) hrt h0) (ix2 p z))
      (broadcastInDim ⟨2, ![M, 1]⟩ ![] hbs (constant (F := Ideal) ⟨0, ![]⟩ .f32 cN) (ix2 p z)) = _
  rw [h1, h2]
  rfl

/-- The matrix with each row's mean subtracted, as the host computes it. -/
def hostCentred {M N : ℕ} (cN : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1]) : FVec Ideal ⟨2, ![M, N]⟩ .f32 :=
  subf a (broadcastInDim ⟨2, ![M, N]⟩ ![0, 1] hbc (hostColMean cN a hrt h0 hb1 hbs))

/-- Row `p` of it is row `p` centred. -/
theorem hostCentred_row {M N : ℕ} (cN : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1]) (p : Fin M) :
    row (hostCentred cN a hrt h0 hb1 hbs hbc) p = centred cN (row a p) := by
  funext q
  have hm : broadcastInDim ⟨2, ![M, N]⟩ ![0, 1] hbc (hostColMean cN a hrt h0 hb1 hbs) (ix2 p q) = mean cN (row a p) :=
    (hostColBroadcast_apply _ hbc p q).trans (hostColMean_apply cN a hrt hr h0 hb1 hbs p 0)
  show a (ix2 p q) - broadcastInDim ⟨2, ![M, N]⟩ ![0, 1] hbc (hostColMean cN a hrt h0 hb1 hbs) (ix2 p q) = _
  rw [hm]
  rfl

/-- Layer normalisation of the rows of `a` with gain `g` and bias `bb` (vectors), as the host computes it. -/
def hostLN {M N : ℕ} (cN ce : BitVec 32) (a : FVec Ideal ⟨2, ![M, N]⟩ .f32) (g bb : FVec Ideal ⟨1, ![N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) : FVec Ideal ⟨2, ![M, N]⟩ .f32 :=
  addf (mulf (mulf (hostCentred cN a hrt h0 hb1 hbs hbc)
      (broadcastInDim ⟨2, ![M, N]⟩ ![0, 1] hbc (hostColScale cN ce (hostCentred cN a hrt h0 hb1 hbs hbc) hrt h0 hb1 hbs)))
      (broadcastInDim ⟨2, ![M, N]⟩ ![0, 1] hgb (broadcastInDim ⟨2, ![1, N]⟩ ![1] hg g)))
    (broadcastInDim ⟨2, ![M, N]⟩ ![0, 1] hgb (broadcastInDim ⟨2, ![1, N]⟩ ![1] hg bb))

/-- Row `p` of the host's layer normalisation is rowLN of row `p`. -/
theorem hostLN_row {M N : ℕ} (cN ce : BitVec 32) (a : FVec Ideal ⟨2, ![M, N]⟩ .f32) (g bb : FVec Ideal ⟨1, ![N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) (p : Fin M) :
    row (hostLN cN ce a g bb hrt h0 hb1 hbs hbc hg hgb) p = rowLN cN ce (row a p) (vec g) (vec bb) := by
  funext q
  have hd : row (hostCentred cN a hrt h0 hb1 hbs hbc) p = centred cN (row a p) := hostCentred_row cN a hrt hr h0 hb1 hbs hbc p
  have hs : broadcastInDim ⟨2, ![M, N]⟩ ![0, 1] hbc (hostColScale cN ce (hostCentred cN a hrt h0 hb1 hbs hbc) hrt h0 hb1 hbs) (ix2 p q)
      = scale cN ce (centred cN (row a p)) := by
    rw [hostColBroadcast_apply _ hbc p q, hostColScale_apply cN ce _ hrt hr h0 hb1 hbs p 0, hd]
  have hq : broadcastInDim ⟨2, ![M, N]⟩ ![0, 1] hgb (broadcastInDim ⟨2, ![1, N]⟩ ![1] hg g) (ix2 p q) = vec g q :=
    (hostRowBroadcast_apply _ hgb p q).trans (hostRow_apply g hg 0 q)
  have hbq : broadcastInDim ⟨2, ![M, N]⟩ ![0, 1] hgb (broadcastInDim ⟨2, ![1, N]⟩ ![1] hg bb) (ix2 p q) = vec bb q :=
    (hostRowBroadcast_apply _ hgb p q).trans (hostRow_apply bb hg 0 q)
  show row (hostCentred cN a hrt h0 hb1 hbs hbc) p q
      * broadcastInDim ⟨2, ![M, N]⟩ ![0, 1] hbc (hostColScale cN ce (hostCentred cN a hrt h0 hb1 hbs hbc) hrt h0 hb1 hbs) (ix2 p q)
      * broadcastInDim ⟨2, ![M, N]⟩ ![0, 1] hgb (broadcastInDim ⟨2, ![1, N]⟩ ![1] hg g) (ix2 p q)
      + broadcastInDim ⟨2, ![M, N]⟩ ![0, 1] hgb (broadcastInDim ⟨2, ![1, N]⟩ ![1] hg bb) (ix2 p q) = _
  rw [hs, hq, hbq, hd]
  rfl

end Cert.LayerNorm

end
-- ==== Proof.Spec.lean ====
/-
  The mathematics of the layer, on the extended reals, as functions of rows.

  With stimulus rows x_b and previous-activation rows y_b (b a batch row), weight tables W and Wr, and the gains and
  biases of two layer normalisations, the layer returns

    * the activation row   outRow x_b y_b = LN_act( relu( x_b·W + LN_rec( y_b·Wr ) ) ), one per batch row; and
    * for each weight table the Hebbian sum   H(i, j) = Σ_b x_b(i) · (x_b·W)(j)   over ALL batch rows, which then goes
      through the same update and row normalisation whoever computed it.

  A sum over all rows does not remember how it was split: cut the rows into blocks of B consecutive rows, let one
  worker add up the blocks 0 … S−1 one after the other and a second worker the blocks S … 2S−1, and add the two
  results; that is the sum over all (S + S)·B rows (`coreParts_eq_total`). Only commutativity and associativity of
  addition on the extended reals are used, so nothing here needs the entries to be finite.
-/
import Idealize.ShloMosaic.PureOps.Ideal
import Idealize.ShloMosaic.Lib.ValueIdx
import proofs.«151966_j20761871909484_2_alg».proof.Proof.LibBlockSums
import proofs.«151966_j20761871909484_2_alg».proof.Proof.LibLayerNorm

noncomputable section

open scoped BigOperators

namespace Cert.Hebb

open Idealize.ShloMosaic Idealize.ShloMosaic.ValueIdx Cert.RmsNorm Cert.LayerNorm

/-- The word of 512.0, the row length both programs divide by. -/
abbrev cN : BitVec 32 := 0x44000000#32
/-- The word of the layer normalisations' offset (1e-5 rounded to f32), the same in both programs. -/
abbrev cE : BitVec 32 := 0x3727C5AC#32

/-- One row of the layer's activation output. -/
def outRow {K N : ℕ} (xs xp : Fin K → EReal) (W Wr : Fin K → Fin N → EReal) (lag lab lrg lrb : Fin N → EReal) :
    Fin N → EReal :=
  rowLN cN cE (fun q => max (rowMat xs W q + rowLN cN cE (rowMat xp Wr) lrg lrb q) (Ideal.ofBits .f32 0x00000000#32)) lag lab

/-- The Hebbian term of one row: x(i) · (x·W)(j). -/
def term {K N : ℕ} (x : Fin K → EReal) (W : Fin K → Fin N → EReal) (i : Fin K) (j : Fin N) : EReal := x i * rowMat x W j

/-- Row `n` of an R-row matrix, with zero rows past the end, so that rows can be counted by natural numbers. -/
def rowAt {R K : ℕ} (X : (⟨2, ![R, K]⟩ : Shape).Idx → EReal) (n : ℕ) : Fin K → EReal :=
  if h : n < R then row X ⟨n, h⟩ else fun _ => 0

theorem rowAt_fin {R K : ℕ} (X : (⟨2, ![R, K]⟩ : Shape).Idx → EReal) (b : Fin R) : rowAt X b.val = row X b := by
  unfold rowAt
  rw [dif_pos b.isLt]

theorem rowAt_of_lt {R K : ℕ} (X : (⟨2, ![R, K]⟩ : Shape).Idx → EReal) (n : ℕ) (h : n < R) : rowAt X n = row X ⟨n, h⟩ := by
  unfold rowAt
  rw [dif_pos h]

/-- The Hebbian sum of block `t`: the B rows from row t·B on. -/
def blockTerm {R K N : ℕ} (B : ℕ) (X : (⟨2, ![R, K]⟩ : Shape).Idx → EReal) (W : Fin K → Fin N → EReal) (t : ℕ)
    (i : Fin K) (j : Fin N) : EReal :=
  ∑ r ∈ Finset.range B, term (rowAt X (t * B + r)) W i j

/-- What one worker has added up after `S` blocks from block `base` on. -/
def corePart {R K N : ℕ} (B : ℕ) (X : (⟨2, ![R, K]⟩ : Shape).Idx → EReal) (W : Fin K → Fin N → EReal) (base S : ℕ)
    (i : Fin K) (j : Fin N) : EReal :=
  ∑ u ∈ Finset.range S, blockTerm B X W (base + u) i j

theorem corePart_one {R K N : ℕ} (B : ℕ) (X : (⟨2, ![R, K]⟩ : Shape).Idx → EReal) (W : Fin K → Fin N → EReal) (base : ℕ)
    (i : Fin K) (j : Fin N) : corePart B X W base 1 i j = blockTerm B X W base i j := by
  unfold corePart
  rw [Finset.sum_range_one, Nat.add_zero]

theorem corePart_succ {R K N : ℕ} (B : ℕ) (X : (⟨2, ![R, K]⟩ : Shape).Idx → EReal) (W : Fin K → Fin N → EReal) (base S : ℕ)
    (i : Fin K) (j : Fin N) :
    corePart B X W base (S + 1) i j = corePart B X W base S i j + blockTerm B X W (base + S) i j := by
  unfold corePart
  rw [Finset.sum_range_succ]

/-- A block's Hebbian sum written over the block's own rows: the form a worker computes it in. -/
theorem blockTerm_eq_sum_fin {R K N : ℕ} (B : ℕ) (X : (⟨2, ![R, K]⟩ : Shape).Idx → EReal) (W : Fin K → Fin N → EReal)
    (t : ℕ) (i : Fin K) (j : Fin N) :
    blockTerm B X W t i j = ∑ r : Fin B, term (rowAt X (t * B + r.val)) W i j :=
  (Cert.LibBlockSums.sum_fin_eq_sum_range B fun r => term (rowAt X (t * B + r)) W i j).symm

/-- The sum over all rows is the sum of the blocks' sums. -/
theorem total_eq_blocks {R K N : ℕ} (A B : ℕ) (hR : R = A * B) (X : (⟨2, ![R, K]⟩ : Shape).Idx → EReal)
    (W : Fin K → Fin N → EReal) (i : Fin K) (j : Fin N) :
    ∑ b : Fin R, term (row X b) W i j = ∑ t ∈ Finset.range A, blockTerm B X W t i j := by
  subst hR
  have h1 : ∑ b : Fin (A * B), term (row X b) W i j = ∑ b : Fin (A * B), (fun n => term (rowAt X n) W i j) b.val :=
    Finset.sum_congr rfl fun b _ => by
      show _ = term (rowAt X b.val) W i j
      rw [rowAt_fin]
  exact h1.trans ((Cert.LibBlockSums.sum_fin_eq_sum_range (A * B) fun n => term (rowAt X n) W i j).trans
    (Cert.LibBlockSums.sum_range_mul A B fun n => term (rowAt X n) W i j))

/-- Two workers, S blocks each: their two sums added are the sum over all rows. -/
theorem coreParts_eq_total {R K N : ℕ} (S B : ℕ) (hR : R = (S + S) * B) (X : (⟨2, ![R, K]⟩ : Shape).Idx → EReal)
    (W : Fin K → Fin N → EReal) (i : Fin K) (j : Fin N) :
    corePart B X W 0 S i j + corePart B X W S S i j = ∑ b : Fin R, term (row X b) W i j := by
  rw [total_eq_blocks (S + S) B hR, Finset.sum_range_add]
  unfold corePart
  simp only [Nat.zero_add]

/-- The activation output as a whole array: row b is outRow of row b of the stimulus and of the previous activation. -/
def outArr {R K N : ℕ} (X Xp : (⟨2, ![R, K]⟩ : Shape).Idx → EReal) (W Wr : (⟨2, ![K, N]⟩ : Shape).Idx → EReal)
    (lag lab lrg lrb : (⟨1, ![N]⟩ : Shape).Idx → EReal) : (⟨2, ![R, N]⟩ : Shape).Idx → EReal :=
  fun idx => outRow (row X (idx 0)) (row Xp (idx 0)) (mat W) (mat Wr) (vec lag) (vec lab) (vec lrg) (vec lrb) (idx 1)

theorem outArr_ix2 {R K N : ℕ} (X Xp : (⟨2, ![R, K]⟩ : Shape).Idx → EReal) (W Wr : (⟨2, ![K, N]⟩ : Shape).Idx → EReal)
    (lag lab lrg lrb : (⟨1, ![N]⟩ : Shape).Idx → EReal) (b : Fin R) (q : Fin N) :
    outArr X Xp W Wr lag lab lrg lrb (ix2 b q)
      = outRow (row X b) (row Xp b) (mat W) (mat Wr) (vec lag) (vec lab) (vec lrg) (vec lrb) q := rfl

/-- The Hebbian sum over all rows as a whole array. -/
def hebbArr {R K N : ℕ} (X : (⟨2, ![R, K]⟩ : Shape).Idx → EReal) (W : (⟨2, ![K, N]⟩ : Shape).Idx → EReal) :
    (⟨2, ![K, N]⟩ : Shape).Idx → EReal :=
  fun idx => ∑ b : Fin R, term (row X b) (mat W) (idx 0) (idx 1)

theorem hebbArr_ix2 {R K N : ℕ} (X : (⟨2, ![R, K]⟩ : Shape).Idx → EReal) (W : (⟨2, ![K, N]⟩ : Shape).Idx → EReal)
    (i : Fin K) (j : Fin N) : hebbArr X W (ix2 i j) = ∑ b : Fin R, term (row X b) (mat W) i j := rfl

end Cert.Hebb

end
-- ==== Proof.Update.lean ====
/-
  The weight update and row normalisation, as one function of whole arrays.

  Given a weight table w [K, N], a per-column rate alpha [N], a per-row decay [K] and a Hebbian sum tot [K, N], the host
  forms   raw = w + tot · alpha (down the columns) − decay (along the rows) · w   and divides every row of raw by the
  larger of its Euclidean length and a small floor. Both programs end with exactly these host operations, applied to
  the Hebbian sum each has computed, so the function is never opened: equal sums give equal results.
-/
import Idealize.ShloMosaic.PureOps.Ideal
import Idealize.ShloMosaic.Lib.Pipeline.Value

noncomputable section

namespace Cert.Hebb

open Idealize.ShloMosaic

/-- w + tot · alpha − decay · w, with alpha spread down the columns and decay along the rows. -/
def rawUpdate {K N : ℕ} (w : FVec Ideal ⟨2, ![K, N]⟩ .f32) (alpha : FVec Ideal ⟨1, ![N]⟩ .f32) (decay : FVec Ideal ⟨1, ![K]⟩ .f32)
    (tot : FVec Ideal ⟨2, ![K, N]⟩ .f32)
    (ha1 : (⟨1, ![N]⟩ : Shape).BroadcastsInDim ⟨2, ![1, N]⟩ ![1]) (ha2 : (⟨2, ![1, N]⟩ : Shape).BroadcastsInDim ⟨2, ![K, N]⟩ ![0, 1])
    (hd1 : (⟨1, ![K]⟩ : Shape).BroadcastsInDim ⟨2, ![K, 1]⟩ ![0]) (hd2 : (⟨2, ![K, 1]⟩ : Shape).BroadcastsInDim ⟨2, ![K, N]⟩ ![0, 1]) :
    FVec Ideal ⟨2, ![K, N]⟩ .f32 :=
  subf (addf w (mulf tot (broadcastInDim ⟨2, ![K, N]⟩ ![0, 1] ha2 (broadcastInDim ⟨2, ![1, N]⟩ ![1] ha1 alpha))))
    (mulf (broadcastInDim ⟨2, ![K, N]⟩ ![0, 1] hd2 (broadcastInDim ⟨2, ![K, 1]⟩ ![0] hd1 decay)) w)

/-- The updated table with every row divided by the larger of its length and the floor the word `ce` encodes. -/
def updated {K N : ℕ} (ce : BitVec 32) (w : FVec Ideal ⟨2, ![K, N]⟩ .f32) (alpha : FVec Ideal ⟨1, ![N]⟩ .f32)
    (decay : FVec Ideal ⟨1, ![K]⟩ .f32) (tot : FVec Ideal ⟨2, ![K, N]⟩ .f32)
    (ha1 : (⟨1, ![N]⟩ : Shape).BroadcastsInDim ⟨2, ![1, N]⟩ ![1]) (ha2 : (⟨2, ![1, N]⟩ : Shape).BroadcastsInDim ⟨2, ![K, N]⟩ ![0, 1])
    (hd1 : (⟨1, ![K]⟩ : Shape).BroadcastsInDim ⟨2, ![K, 1]⟩ ![0]) (hd2 : (⟨2, ![K, 1]⟩ : Shape).BroadcastsInDim ⟨2, ![K, N]⟩ ![0, 1])
    (hrt : (⟨2, ![K, N]⟩ : Shape).ReducesTo [1] (⟨1, ![K]⟩ : Shape)) (h0 : 0 < (⟨0, ![]⟩ : Shape).numel)
    (hbs : (⟨0, ![]⟩ : Shape).BroadcastsInDim ⟨2, ![K, 1]⟩ ![]) : FVec Ideal ⟨2, ![K, N]⟩ .f32 :=
  Host.divf (rawUpdate w alpha decay tot ha1 ha2 hd1 hd2)
    (broadcastInDim ⟨2, ![K, N]⟩ ![0, 1] hd2
      (maximumf
        (Host.sqrt (broadcastInDim ⟨2, ![K, 1]⟩ ![0] hd1
          (Host.reduceAdd (mulf (rawUpdate w alpha decay tot ha1 ha2 hd1 hd2) (rawUpdate w alpha decay tot ha1 ha2 hd1 hd2))
            (constant (F := Ideal) ⟨0, ![]⟩ .f32 0x00000000#32) hrt h0)))
        (broadcastInDim ⟨2, ![K, 1]⟩ ![] hbs (constant (F := Ideal) ⟨0, ![]⟩ .f32 ce))))

end Cert.Hebb

end
-- ==== Proof.RefSide.lean ====
/-
  The reference, read: its three results are the layer's functions of the argument arrays.

  The first result, row by row, is outRow of the stimulus row and the previous-activation row: a product with a weight
  table read at a row is that row times the table, and the host's two layer normalisations read at a row are rowLN of the
  row. The second and third results are the common update applied to the Hebbian sum over all rows: the host's
  contraction over the batch axis at (i, j) is Σ_b x_b(i) · (x_b·W)(j).
-/
import proofs.«151966_j20761871909484_2_alg».proof.Proof.Gen.ReferenceIdeal.Read
import proofs.«151966_j20761871909484_2_alg».proof.Proof.Spec
import proofs.«151966_j20761871909484_2_alg».proof.Proof.Update

noncomputable section

open scoped BigOperators

namespace Cert.Hebb.Ref

open Cert.ReferenceIdeal Cert.ReferenceIdeal.Gen Cert.ReferenceIdeal.Read
open Idealize.ShloMosaic Idealize.ShloMosaic.ValueIdx Cert.RmsNorm Cert.LayerNorm Cert.Hebb

/-- The argument arrays' types: a batch of rows, a weight table, a vector of 512 entries. -/
abbrev XT : Type := (⟨S32768x512, .f32⟩ : BufTy).Contents (Elt Ideal)
abbrev WT : Type := (⟨S512x512, .f32⟩ : BufTy).Contents (Elt Ideal)
abbrev GT : Type := (⟨S512, .f32⟩ : BufTy).Contents (Elt Ideal)

/-- Row p of the previous activation times Wr. -/
theorem row_v0 (x1 : XT) (x3 : WT) (p : Fin 32768) :
    row (M := 32768) (N := 512) (val_main_v0 (F := Ideal) x1 x3) p = rowMat (row (M := 32768) (N := 512) x1 p) (mat (K := 512) (N := 512) x3) := by
  funext q
  show val_main_v0 (F := Ideal) x1 x3 (ix2 p q) = ∑ k : Fin 512, x1 (ix2 p k) * x3 (ix2 k q)
  rw [val_main_v0_apply]
  refine Finset.sum_congr rfl fun k _ => ?_
  have e1 : lidx_main_v0 (ix2 p q) k = ix2 p k := funext fun a => Fin.ext (by match a with | ⟨0, _⟩ => rfl | ⟨1, _⟩ => rfl)
  have e2 : ridx_main_v0 (ix2 p q) k = ix2 k q := funext fun a => Fin.ext (by match a with | ⟨0, _⟩ => rfl | ⟨1, _⟩ => rfl)
  rw [e1, e2]

/-- Row p of the stimulus times W. -/
theorem row_v25 (x0 : XT) (x2 : WT) (p : Fin 32768) :
    row (M := 32768) (N := 512) (val_main_v25 (F := Ideal) x0 x2) p = rowMat (row (M := 32768) (N := 512) x0 p) (mat (K := 512) (N := 512) x2) := by
  funext q
  show val_main_v25 (F := Ideal) x0 x2 (ix2 p q) = ∑ k : Fin 512, x0 (ix2 p k) * x2 (ix2 k q)
  rw [val_main_v25_apply]
  refine Finset.sum_congr rfl fun k _ => ?_
  have e1 : lidx_main_v25 (ix2 p q) k = ix2 p k := funext fun a => Fin.ext (by match a with | ⟨0, _⟩ => rfl | ⟨1, _⟩ => rfl)
  have e2 : ridx_main_v25 (ix2 p q) k = ix2 k q := funext fun a => Fin.ext (by match a with | ⟨0, _⟩ => rfl | ⟨1, _⟩ => rfl)
  rw [e1, e2]

/-- The recurrent path's normalisation is the host's layer normalisation of the product. -/
theorem v24_eq (x1 : XT) (x3 : WT) (x8 x9 : GT) :
    val_main_v24 (F := Ideal) x1 x3 x8 x9
      = hostLN (M := 32768) (N := 512) cN cE (val_main_v0 (F := Ideal) x1 x3) x8 x9 reducesTo_S32768x512_S32768_d1 h_S_
          bcast_S32768_S32768x1_0 bcast_S_S32768x1 bcast_S32768x1_S32768x512_0_1 bcast_S512_S1x512_1 bcast_S1x512_S32768x512_0_1 := rfl

theorem row_v24 (x1 : XT) (x3 : WT) (x8 x9 : GT) (p : Fin 32768) :
    row (M := 32768) (N := 512) (val_main_v24 (F := Ideal) x1 x3 x8 x9) p
      = rowLN cN cE (rowMat (row (M := 32768) (N := 512) x1 p) (mat (K := 512) (N := 512) x3)) (vec x8) (vec x9) := by
  rw [v24_eq, hostLN_row (hr := by decide), row_v0]

/-- The value before the second normalisation, row by row. -/
theorem row_v27 (x0 x1 : XT) (x2 x3 : WT) (x8 x9 : GT) (p : Fin 32768) :
    row (M := 32768) (N := 512) (val_main_v27 (F := Ideal) x0 x1 x2 x3 x8 x9) p
      = fun q => max (rowMat (row (M := 32768) (N := 512) x0 p) (mat (K := 512) (N := 512) x2) q
          + rowLN cN cE (rowMat (row (M := 32768) (N := 512) x1 p) (mat (K := 512) (N := 512) x3)) (vec x8) (vec x9) q)
          (Ideal.ofBits .f32 0x00000000#32) := by
  funext q
  have h25 := congrFun (row_v25 x0 x2 p) q
  have h24 := congrFun (row_v24 x1 x3 x8 x9 p) q
  have hz : val_main_call0_v0 (F := Ideal) (ix2 p q) = Ideal.ofBits .f32 0x00000000#32 := by
    rw [val_main_call0_v0_apply]; rfl
  show max (val_main_v25 (F := Ideal) x0 x2 (ix2 p q) + val_main_v24 (F := Ideal) x1 x3 x8 x9 (ix2 p q))
      (val_main_call0_v0 (F := Ideal) (ix2 p q)) = _
  rw [hz]
  exact congrArg (fun s => max s (Ideal.ofBits .f32 0x00000000#32)) (congrArg₂ (· + ·) h25 h24)

/-- The first result is the host's layer normalisation of that value. -/
theorem v51_eq (x0 x1 : XT) (x2 x3 : WT) (x6 x7 x8 x9 : GT) :
    val_main_v51 (F := Ideal) x0 x1 x2 x3 x6 x7 x8 x9
      = hostLN (M := 32768) (N := 512) cN cE (val_main_v27 (F := Ideal) x0 x1 x2 x3 x8 x9) x6 x7 reducesTo_S32768x512_S32768_d1 h_S_
          bcast_S32768_S32768x1_0 bcast_S_S32768x1 bcast_S32768x1_S32768x512_0_1 bcast_S512_S1x512_1 bcast_S1x512_S32768x512_0_1 := rfl

/-- THE FIRST RESULT: the activation array of the specification. -/
theorem v51_spec (x0 x1 : XT) (x2 x3 : WT) (x6 x7 x8 x9 : GT) :
    val_main_v51 (F := Ideal) x0 x1 x2 x3 x6 x7 x8 x9 = outArr (R := 32768) (K := 512) (N := 512) x0 x1 x2 x3 x6 x7 x8 x9 := by
  funext idx
  obtain ⟨p, q, rfl⟩ : ∃ (p : Fin 32768) (q : Fin 512), idx = ix2 p q := ⟨idx 0, idx 1, eq_ix2 idx⟩
  rw [outArr_ix2]
  have h := congrFun (hostLN_row (M := 32768) (N := 512) cN cE (val_main_v27 (F := Ideal) x0 x1 x2 x3 x8 x9) x6 x7
    reducesTo_S32768x512_S32768_d1 (by decide) h_S_ bcast_S32768_S32768x1_0 bcast_S_S32768x1 bcast_S32768x1_S32768x512_0_1
    bcast_S512_S1x512_1 bcast_S1x512_S32768x512_0_1 p) q
  rw [row_v27] at h
  rw [v51_eq]
  exact h

/-- The host's contraction over the batch axis: the Hebbian sum over all rows, for the stimulus and W. -/
theorem v52_spec (x0 : XT) (x2 : WT) : val_main_v52 (F := Ideal) x0 x2 = hebbArr (R := 32768) (K := 512) (N := 512) x0 x2 := by
  funext idx
  obtain ⟨i, j, rfl⟩ : ∃ (i : Fin 512) (j : Fin 512), idx = ix2 i j := ⟨idx 0, idx 1, eq_ix2 idx⟩
  rw [hebbArr_ix2, val_main_v52_apply]
  refine Finset.sum_congr rfl fun b _ => ?_
  have e1 : lidx_main_v52 (ix2 i j) b = ix2 b i := funext fun a => Fin.ext (by match a with | ⟨0, _⟩ => rfl | ⟨1, _⟩ => rfl)
  have e2 : ridx_main_v52 (ix2 i j) b = ix2 b j := funext fun a => Fin.ext (by match a with | ⟨0, _⟩ => rfl | ⟨1, _⟩ => rfl)
  rw [e1, e2]
  exact congrArg (fun s => x0 (ix2 b i) * s) (congrFun (row_v25 x0 x2 b) j)

/-- The same for the previous activation and Wr. -/
theorem v56_spec (x1 : XT) (x3 : WT) : val_main_v56 (F := Ideal) x1 x3 = hebbArr (R := 32768) (K := 512) (N := 512) x1 x3 := by
  funext idx
  obtain ⟨i, j, rfl⟩ : ∃ (i : Fin 512) (j : Fin 512), idx = ix2 i j := ⟨idx 0, idx 1, eq_ix2 idx⟩
  rw [hebbArr_ix2, val_main_v56_apply]
  refine Finset.sum_congr rfl fun b _ => ?_
  have e1 : lidx_main_v56 (ix2 i j) b = ix2 b i := funext fun a => Fin.ext (by match a with | ⟨0, _⟩ => rfl | ⟨1, _⟩ => rfl)
  have e2 : ridx_main_v56 (ix2 i j) b = ix2 b j := funext fun a => Fin.ext (by match a with | ⟨0, _⟩ => rfl | ⟨1, _⟩ => rfl)
  rw [e1, e2]
  exact congrArg (fun s => x1 (ix2 b i) * s) (congrFun (row_v0 x1 x3 b) j)

/-- The word of the row normalisation's floor (1e-12 rounded to f32), the same in both programs. -/
abbrev cF : BitVec 32 := 0x2B8CBCCC#32

/-- THE SECOND RESULT: the common update of W by the Hebbian sum of the stimulus. -/
theorem v72_spec (x0 : XT) (x2 : WT) (x4 x5 : GT) :
    val_main_v72 (F := Ideal) x0 x2 x4 x5
      = updated (K := 512) (N := 512) cF x2 x4 x5 (hebbArr (R := 32768) (K := 512) (N := 512) x0 x2) bcast_S512_S1x512_1 bcast_S1x512_S512x512_0_1
          bcast_S512_S512x1_0 bcast_S512x1_S512x512_0_1 reducesTo_S512x512_S512_d1 h_S_ bcast_S_S512x1 := by
  rw [← v52_spec]
  rfl

/-- THE THIRD RESULT: the common update of Wr by the Hebbian sum of the previous activation. -/
theorem v85_spec (x1 : XT) (x3 : WT) (x4 x5 : GT) :
    val_main_v85 (F := Ideal) x1 x3 x4 x5
      = updated (K := 512) (N := 512) cF x3 x4 x5 (hebbArr (R := 32768) (K := 512) (N := 512) x1 x3) bcast_S512_S1x512_1 bcast_S1x512_S512x512_0_1
          bcast_S512_S512x1_0 bcast_S512x1_S512x512_0_1 reducesTo_S512x512_S512_d1 h_S_ bcast_S_S512x1 := by
  rw [← v56_spec]
  rfl

end Cert.Hebb.Ref

end
-- ==== Proof.Pieces.lean ====
/-
  What the body leaves in each buffer, as the body's arithmetic applied to what it was given.

  The body runs in one of two ways. At the first step of a core (case A) it first zeroes the two accumulator blocks and
  stores the two weight tables, in the narrower format, into the two scratch buffers, and then goes on as at any other
  step (case B): it stores the activation block computed from the stimulus block, the previous-activation block, the
  scratch copies of the tables and the four one-row blocks, and adds the block's two Hebbian sums into the two
  accumulator blocks. A load that follows a store of the same whole buffer reads what was stored, so in case A the
  accumulators are read back as zero and the scratch as the tables just stored; in case B they are read as the point
  before left them. Every store covers its whole buffer, so each buffer ends holding its last store's value.
-/
import proofs.«151966_j20761871909484_2_alg».proof.Proof.Gen.KernelIdeal.Frame
import Idealize.ShloMosaic.Lib.Pipeline.Value
import Idealize.ShloMosaic.Lib.Tactic

set_option maxRecDepth 16384

noncomputable section

namespace Cert.Hebb.Pieces

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A later step of a core -/

/-- The activation block, from the blocks given and the scratch as the point before left it. -/
theorem out_B_8 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S512x512 .bf16) (harg13 : arg13.IsWhole) (arg14 : Memref sig .tc .vmem S512x512 .bf16) (harg14 : arg14.IsWhole) (hc0 : ¬cond0_0 i)
    (x0 : Vec F S1024x512 .f32) (x1 : Vec F S1024x512 .f32) (x2 : Vec F S512x512 .f32) (x3 : Vec F S512x512 .f32) (x4 : Vec F S1x512 .f32) (x5 : Vec F S1x512 .f32) (x6 : Vec F S1x512 .f32) (x7 : Vec F S1x512 .f32) (xo9 : Vec F S1x512x512 .f32) (xo10 : Vec F S1x512x512 .f32) (xs0 : Vec F S512x512 .bf16) (xs1 : Vec F S512x512 .bf16) :
    out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xs0 xs1
      = k0_pay12 (k0_pay7 x0) xs0 (k0_pay10 x1 xs1 x6 x7) (constant S1024x512 .f32 0x00000000#32) x4 x5 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xs0 xs1)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg11.read_unread, harg12.read_unread, harg13.read_unread,
    harg14.read_unread, View.ld_unit_zero (S := S1024x512) hz2, View.ld_unit_zero (S := S512x512) hz2,
    View.ld_unit_zero (S := S1x512) hz2, View.ld_unit_zero (S := S1x512x512) hz3,
    View.readCov_unit_zero (S := S512x512) _ hz2, View.readCov_unit_zero (S := S1x512x512) _ hz3]

/-- The stimulus accumulator: what the point before left plus this block's Hebbian sum. -/
theorem out_B_9 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S512x512 .bf16) (harg13 : arg13.IsWhole) (arg14 : Memref sig .tc .vmem S512x512 .bf16) (harg14 : arg14.IsWhole) (hc0 : ¬cond0_0 i)
    (x0 : Vec F S1024x512 .f32) (x1 : Vec F S1024x512 .f32) (x2 : Vec F S512x512 .f32) (x3 : Vec F S512x512 .f32) (x4 : Vec F S1x512 .f32) (x5 : Vec F S1x512 .f32) (x6 : Vec F S1x512 .f32) (x7 : Vec F S1x512 .f32) (xo9 : Vec F S1x512x512 .f32) (xo10 : Vec F S1x512x512 .f32) (xs0 : Vec F S512x512 .bf16) (xs1 : Vec F S512x512 .bf16) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xs0 xs1
      = k0_pay1 (k0_pay14 (k0_pay7 x0) xs0 (constant S1024x512 .f32 0x00000000#32) xo9) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xs0 xs1)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg11.read_unread, harg12.read_unread, harg13.read_unread,
    harg14.read_unread, View.ld_unit_zero (S := S1024x512) hz2, View.ld_unit_zero (S := S512x512) hz2,
    View.ld_unit_zero (S := S1x512) hz2, View.ld_unit_zero (S := S1x512x512) hz3,
    View.readCov_unit_zero (S := S512x512) _ hz2, View.readCov_unit_zero (S := S1x512x512) _ hz3]

/-- The previous-activation accumulator: what the point before left plus this block's Hebbian sum. -/
theorem out_B_10 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S512x512 .bf16) (harg13 : arg13.IsWhole) (arg14 : Memref sig .tc .vmem S512x512 .bf16) (harg14 : arg14.IsWhole) (hc0 : ¬cond0_0 i)
    (x0 : Vec F S1024x512 .f32) (x1 : Vec F S1024x512 .f32) (x2 : Vec F S512x512 .f32) (x3 : Vec F S512x512 .f32) (x4 : Vec F S1x512 .f32) (x5 : Vec F S1x512 .f32) (x6 : Vec F S1x512 .f32) (x7 : Vec F S1x512 .f32) (xo9 : Vec F S1x512x512 .f32) (xo10 : Vec F S1x512x512 .f32) (xs0 : Vec F S512x512 .bf16) (xs1 : Vec F S512x512 .bf16) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xs0 xs1
      = k0_pay2 (k0_pay13 (k0_pay8 x1) (k0_pay9 x1 xs1)) xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xs0 xs1)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg11.read_unread, harg12.read_unread, harg13.read_unread,
    harg14.read_unread, View.ld_unit_zero (S := S1024x512) hz2, View.ld_unit_zero (S := S512x512) hz2,
    View.ld_unit_zero (S := S1x512) hz2, View.ld_unit_zero (S := S1x512x512) hz3,
    View.readCov_unit_zero (S := S512x512) _ hz2, View.readCov_unit_zero (S := S1x512x512) _ hz3]

/-! ## The first step of a core -/

/-- The activation block, with the scratch read back as the tables just stored. -/
theorem out_A_8 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S512x512 .bf16) (harg13 : arg13.IsWhole) (arg14 : Memref sig .tc .vmem S512x512 .bf16) (harg14 : arg14.IsWhole) (hc0 : cond0_0 i)
    (x0 : Vec F S1024x512 .f32) (x1 : Vec F S1024x512 .f32) (x2 : Vec F S512x512 .f32) (x3 : Vec F S512x512 .f32) (x4 : Vec F S1x512 .f32) (x5 : Vec F S1x512 .f32) (x6 : Vec F S1x512 .f32) (x7 : Vec F S1x512 .f32) :
    out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
      = k0_pay12 (k0_pay7 x0) (k0_pay5 x2) (k0_pay10 x1 (k0_pay6 x3) x6 x7) (constant S1024x512 .f32 0x00000000#32) x4 x5 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg11.read_unread, harg12.read_unread, harg13.read_unread,
    harg14.read_unread, View.ld_unit_zero (S := S1024x512) hz2, View.ld_unit_zero (S := S512x512) hz2,
    View.ld_unit_zero (S := S1x512) hz2, View.ld_unit_zero (S := S1x512x512) hz3,
    View.readCov_unit_zero (S := S512x512) _ hz2, View.readCov_unit_zero (S := S1x512x512) _ hz3]

/-- The stimulus accumulator: the zero block read back, plus this block's Hebbian sum. -/
theorem out_A_9 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S512x512 .bf16) (harg13 : arg13.IsWhole) (arg14 : Memref sig .tc .vmem S512x512 .bf16) (harg14 : arg14.IsWhole) (hc0 : cond0_0 i)
    (x0 : Vec F S1024x512 .f32) (x1 : Vec F S1024x512 .f32) (x2 : Vec F S512x512 .f32) (x3 : Vec F S512x512 .f32) (x4 : Vec F S1x512 .f32) (x5 : Vec F S1x512 .f32) (x6 : Vec F S1x512 .f32) (x7 : Vec F S1x512 .f32) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
      = k0_pay1 (k0_pay14 (k0_pay7 x0) (k0_pay5 x2) (constant S1024x512 .f32 0x00000000#32) (k0_pay3 (F := F))) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_cons_unit_zero (S := S1x512x512) hz3]
  simp only [View.readAt_eq_ld, harg2.read_unread, harg3.read_unread, harg4.read_unread, harg5.read_unread, harg6.read_unread,
    harg7.read_unread, harg8.read_unread, harg9.read_unread, harg11.read_unread, harg12.read_unread, harg13.read_unread,
    harg14.read_unread, View.ld_unit_zero (S := S1024x512) hz2, View.ld_unit_zero (S := S512x512) hz2,
    View.ld_unit_zero (S := S1x512) hz2, View.ld_unit_zero (S := S1x512x512) hz3,
    View.readCov_unit_zero (S := S512x512) _ hz2, View.readCov_unit_zero (S := S1x512x512) _ hz3]

/-- The previous-activation accumulator: the zero block read back, plus this block's Hebbian sum. -/
theorem out_A_10 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S512x512 .bf16) (harg13 : arg13.IsWhole) (arg14 : Memref sig .tc .vmem S512x512 .bf16) (harg14 : arg14.IsWhole) (hc0 : cond0_0 i)
    (x0 : Vec F S1024x512 .f32) (x1 : Vec F S1024x512 .f32) (x2 : Vec F S512x512 .f32) (x3 : Vec F S512x512 .f32) (x4 : Vec F S1x512 .f32) (x5 : Vec F S1x512 .f32) (x6 : Vec F S1x512 .f32) (x7 : Vec F S1x512 .f32) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
      = k0_pay2 (k0_pay13 (k0_pay8 x1) (k0_pay9 x1 (k0_pay6 x3))) (k0_pay4 (F := F)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_cons_unit_zero (S := S1x512x512) hz3]
  simp only [View.readAt_eq_ld, harg2.read_unread, harg3.read_unread, harg4.read_unread, harg5.read_unread, harg6.read_unread,
    harg7.read_unread, harg8.read_unread, harg9.read_unread, harg11.read_unread, harg12.read_unread, harg13.read_unread,
    harg14.read_unread, View.ld_unit_zero (S := S1024x512) hz2, View.ld_unit_zero (S := S512x512) hz2,
    View.ld_unit_zero (S := S1x512) hz2, View.ld_unit_zero (S := S1x512x512) hz3,
    View.readCov_unit_zero (S := S512x512) _ hz2, View.readCov_unit_zero (S := S1x512x512) _ hz3]

/-- The first scratch buffer: W in the narrower format. -/
theorem sout_A_0 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S512x512 .bf16) (harg13 : arg13.IsWhole) (arg14 : Memref sig .tc .vmem S512x512 .bf16) (harg14 : arg14.IsWhole) (hc0 : cond0_0 i)
    (x0 : Vec F S1024x512 .f32) (x1 : Vec F S1024x512 .f32) (x2 : Vec F S512x512 .f32) (x3 : Vec F S512x512 .f32) (x4 : Vec F S1x512 .f32) (x5 : Vec F S1x512 .f32) (x6 : Vec F S1x512 .f32) (x7 : Vec F S1x512 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
      = k0_pay5 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg11.read_unread, harg12.read_unread, harg13.read_unread,
    harg14.read_unread, View.ld_unit_zero (S := S1024x512) hz2, View.ld_unit_zero (S := S512x512) hz2,
    View.ld_unit_zero (S := S1x512) hz2, View.ld_unit_zero (S := S1x512x512) hz3,
    View.readCov_unit_zero (S := S512x512) _ hz2, View.readCov_unit_zero (S := S1x512x512) _ hz3]

/-- The second scratch buffer: Wr in the narrower format. -/
theorem sout_A_1 (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .f32) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S512x512 .bf16) (harg13 : arg13.IsWhole) (arg14 : Memref sig .tc .vmem S512x512 .bf16) (harg14 : arg14.IsWhole) (hc0 : cond0_0 i)
    (x0 : Vec F S1024x512 .f32) (x1 : Vec F S1024x512 .f32) (x2 : Vec F S512x512 .f32) (x3 : Vec F S512x512 .f32) (x4 : Vec F S1x512 .f32) (x5 : Vec F S1x512 .f32) (x6 : Vec F S1x512 .f32) (x7 : Vec F S1x512 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
      = k0_pay6 x3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg11.read_unread, harg12.read_unread, harg13.read_unread,
    harg14.read_unread, View.ld_unit_zero (S := S1024x512) hz2, View.ld_unit_zero (S := S512x512) hz2,
    View.ld_unit_zero (S := S1x512) hz2, View.ld_unit_zero (S := S1x512x512) hz3,
    View.readCov_unit_zero (S := S512x512) _ hz2, View.readCov_unit_zero (S := S1x512x512) _ hz3]

end Cert.Hebb.Pieces

end
-- ==== Proof.Blocks.lean ====
/-
  The blocks the body is given, read off the arrays the region finds.

  The grid has 32 points, point t = 16·core + step. The stimulus and previous-activation windows hand point t the rows
  1024·t … 1024·t + 1023 of their arrays; the two weight tables and the four one-row gain / bias arrays are handed whole
  at every point; the one-row arrays are the 512-entry argument vectors re-laid as [1, 512] by the host before the
  region. The index maps are decided once over the 32 points.
-/
import proofs.«151966_j20761871909484_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.Hebb.Blocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The row windows (stimulus, previous activation, activation output) are at block t on the rows, block 0 on the lanes. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)

/-- The weight tables and the one-row arrays are at block (0, 0) at every point. -/
theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The two accumulator windows are at the core's slab: block (t / 16, 0, 0). -/
theorem idx_core : ∀ t : Fin cfg0.N,
    (win0_9.index t (0 : Fin 3) = t.val / 16 ∧ win0_9.index t (1 : Fin 3) = 0 ∧ win0_9.index t (2 : Fin 3) = 0)
    ∧ (win0_10.index t (0 : Fin 3) = t.val / 16 ∧ win0_10.index t (1 : Fin 3) = 0 ∧ win0_10.index t (2 : Fin 3) = 0) :=
  (by decide +kernel : ∀ t : Fin grid0.N, _)

/-- Point t's stimulus block at (r, k) is the stimulus at row 1024·t + r. -/
theorem iblk0_apply (c : Dev nD) (t : Fin cfg0.N) (r : Fin 1024) (k : Fin 512) (hb : t.val * 1024 + r.val < 32768) :
    (iblk m c 0 t : Vec F S1024x512 .f32) (ix2 r k) = V m c main_arg0 (ix2 ⟨t.val * 1024 + r.val, hb⟩ k) := by
  obtain ⟨h0, h1, -⟩ := idx_rows t
  unfold iblk
  rw [View.read_apply]
  show V m c main_arg0 _ = V m c main_arg0 _
  congr 1
  funext a
  apply Fin.ext
  match a with
  | ⟨0, _⟩ => show win0_0.index t 0 * 1024 + 1 * r.val = t.val * 1024 + r.val; rw [h0]; omega
  | ⟨1, _⟩ => show win0_0.index t 1 * 512 + 1 * k.val = k.val; rw [h1]; omega

/-- Point t's previous-activation block at (r, k) is the previous activation at row 1024·t + r. -/
theorem iblk1_apply (c : Dev nD) (t : Fin cfg0.N) (r : Fin 1024) (k : Fin 512) (hb : t.val * 1024 + r.val < 32768) :
    (iblk m c 1 t : Vec F S1024x512 .f32) (ix2 r k) = V m c main_arg1 (ix2 ⟨t.val * 1024 + r.val, hb⟩ k) := by
  obtain ⟨-, -, h0, h1, -⟩ := idx_rows t
  unfold iblk
  rw [View.read_apply]
  show V m c main_arg1 _ = V m c main_arg1 _
  congr 1
  funext a
  apply Fin.ext
  match a with
  | ⟨0, _⟩ => show win0_1.index t 0 * 1024 + 1 * r.val = t.val * 1024 + r.val; rw [h0]; omega
  | ⟨1, _⟩ => show win0_1.index t 1 * 512 + 1 * k.val = k.val; rw [h1]; omega

/-- W is handed whole at every point. -/
theorem iblk2_eq (c : Dev nD) (t : Fin cfg0.N) : (iblk m c 2 t : Vec F S512x512 .f32) = V m c main_arg2 := by
  obtain ⟨⟨h0, h1⟩, -⟩ := idx_whole t
  funext y
  unfold iblk
  rw [View.read_apply]
  show V m c main_arg2 _ = V m c main_arg2 y
  congr 1
  funext a
  apply Fin.ext
  match a with
  | ⟨0, _⟩ => show win0_2.index t 0 * 512 + 1 * (y 0).val = (y 0).val; rw [h0]; omega
  | ⟨1, _⟩ => show win0_2.index t 1 * 512 + 1 * (y 1).val = (y 1).val; rw [h1]; omega

/-- Wr is handed whole at every point. -/
theorem iblk3_eq (c : Dev nD) (t : Fin cfg0.N) : (iblk m c 3 t : Vec F S512x512 .f32) = V m c main_arg3 := by
  obtain ⟨-, ⟨h0, h1⟩, -⟩ := idx_whole t
  funext y
  unfold iblk
  rw [View.read_apply]
  show V m c main_arg3 _ = V m c main_arg3 y
  congr 1
  funext a
  apply Fin.ext
  match a with
  | ⟨0, _⟩ => show win0_3.index t 0 * 512 + 1 * (y 0).val = (y 0).val; rw [h0]; omega
  | ⟨1, _⟩ => show win0_3.index t 1 * 512 + 1 * (y 1).val = (y 1).val; rw [h1]; omega

/-- The activation gain row is handed whole at every point. -/
theorem iblk4_eq (c : Dev nD) (t : Fin cfg0.N) : (iblk m c 4 t : Vec F S1x512 .f32) = V m c main_v0 := by
  obtain ⟨-, -, ⟨h0, h1⟩, -⟩ := idx_whole t
  funext y
  unfold iblk
  rw [View.read_apply]
  show V m c main_v0 _ = V m c main_v0 y
  congr 1
  funext a
  apply Fin.ext
  match a with
  | ⟨0, _⟩ => show win0_4.index t 0 * 1 + 1 * (y 0).val = (y 0).val; rw [h0]; omega
  | ⟨1, _⟩ => show win0_4.index t 1 * 512 + 1 * (y 1).val = (y 1).val; rw [h1]; omega

/-- The activation bias row is handed whole at every point. -/
theorem iblk5_eq (c : Dev nD) (t : Fin cfg0.N) : (iblk m c 5 t : Vec F S1x512 .f32) = V m c main_v1 := by
  obtain ⟨-, -, -, ⟨h0, h1⟩, -⟩ := idx_whole t
  funext y
  unfold iblk
  rw [View.read_apply]
  show V m c main_v1 _ = V m c main_v1 y
  congr 1
  funext a
  apply Fin.ext
  match a with
  | ⟨0, _⟩ => show win0_5.index t 0 * 1 + 1 * (y 0).val = (y 0).val; rw [h0]; omega
  | ⟨1, _⟩ => show win0_5.index t 1 * 512 + 1 * (y 1).val = (y 1).val; rw [h1]; omega

/-- The recurrent gain row is handed whole at every point. -/
theorem iblk6_eq (c : Dev nD) (t : Fin cfg0.N) : (iblk m c 6 t : Vec F S1x512 .f32) = V m c main_v2 := by
  obtain ⟨-, -, -, -, ⟨h0, h1⟩, -⟩ := idx_whole t
  funext y
  unfold iblk
  rw [View.read_apply]
  show V m c main_v2 _ = V m c main_v2 y
  congr 1
  funext a
  apply Fin.ext
  match a with
  | ⟨0, _⟩ => show win0_6.index t 0 * 1 + 1 * (y 0).val = (y 0).val; rw [h0]; omega
  | ⟨1, _⟩ => show win0_6.index t 1 * 512 + 1 * (y 1).val = (y 1).val; rw [h1]; omega

/-- The recurrent bias row is handed whole at every point. -/
theorem iblk7_eq (c : Dev nD) (t : Fin cfg0.N) : (iblk m c 7 t : Vec F S1x512 .f32) = V m c main_v3 := by
  obtain ⟨-, -, -, -, -, h0, h1⟩ := idx_whole t
  funext y
  unfold iblk
  rw [View.read_apply]
  show V m c main_v3 _ = V m c main_v3 y
  congr 1
  funext a
  apply Fin.ext
  match a with
  | ⟨0, _⟩ => show win0_7.index t 0 * 1 + 1 * (y 0).val = (y 0).val; rw [h0]; omega
  | ⟨1, _⟩ => show win0_7.index t 1 * 512 + 1 * (y 1).val = (y 1).val; rw [h1]; omega

/-- The one-row arrays the region finds are the argument vectors re-laid as [1, 512] by the host. -/
theorem V_v0 (c : Dev nD) :
    (V m c main_v0 : S1x512.Idx → Elt F .f32) = shapeCast S1x512 (m ((c : Thread nD τ).loc main_arg6)) shapeCasts_S512_S1x512 := by
  show StableHlo.after hostOps0 (fun b => m (c, b)) (Proc.devRef .tc main_v0) = _
  after_results
  rfl
theorem V_v1 (c : Dev nD) :
    (V m c main_v1 : S1x512.Idx → Elt F .f32) = shapeCast S1x512 (m ((c : Thread nD τ).loc main_arg7)) shapeCasts_S512_S1x512 := by
  show StableHlo.after hostOps0 (fun b => m (c, b)) (Proc.devRef .tc main_v1) = _
  after_results
  rfl
theorem V_v2 (c : Dev nD) :
    (V m c main_v2 : S1x512.Idx → Elt F .f32) = shapeCast S1x512 (m ((c : Thread nD τ).loc main_arg8)) shapeCasts_S512_S1x512 := by
  show StableHlo.after hostOps0 (fun b => m (c, b)) (Proc.devRef .tc main_v2) = _
  after_results
  rfl
theorem V_v3 (c : Dev nD) :
    (V m c main_v3 : S1x512.Idx → Elt F .f32) = shapeCast S1x512 (m ((c : Thread nD τ).loc main_arg9)) shapeCasts_S512_S1x512 := by
  show StableHlo.after hostOps0 (fun b => m (c, b)) (Proc.devRef .tc main_v3) = _
  after_results
  rfl

end Cert.Hebb.Blocks

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibMatmulTN.lean ====
/-
  A matrix product that contracts the FIRST axis of both operands, read at one entry on the extended reals: for a
  K × M left operand and a K × N right operand accumulated into zeros, entry (i, j) is Σ_k lhs (k, i) · rhs (k, j) —
  the transpose of the left operand times the right operand, with no transpose ever formed. No rounding and no
  order of accumulation is left in it.
-/
import Idealize.ShloMosaic.PureOps.Ideal.Laws
import Idealize.ShloMosaic.Lib.ValueIdx

noncomputable section

namespace Cert.MatmulTN

open Idealize.ShloMosaic Idealize.ShloMosaic.ValueIdx

/-- The dimension numbers `<[0], [0], [1], [1], [0, 1, 1, 1], [], []>` (the fifth group is the order of the result's
    axes, which the record does not carry): `K×M` by `K×N`, both contracted on their first axis. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- Entry (i, j) of the product over the first axes of `lhs` (K × M) and `rhs` (K × N) accumulated into zeros. -/
theorem matmul_zero_apply (K M N : Nat) {φ₁ φ₂ : FTy} (prec : Option ContractPrecision)
    (lhs : FVec Ideal ⟨2, ![K, M]⟩ φ₁) (rhs : FVec Ideal ⟨2, ![K, N]⟩ φ₂) (i : Fin M) (j : Fin N) :
    FloatOps.matmul (dims K M N) prec lhs rhs (constant ⟨2, ![M, N]⟩ .f32 0x00000000#32) (ix2 i j)
      = ∑ k : Fin K, lhs (ix2 k i) * rhs (ix2 k j) := by
  rw [Ideal.matmul_constant_zero_apply, ← Equiv.sum_comp (contrEquiv1 (dims K M N) K rfl rfl).symm]
  refine Finset.sum_congr rfl fun k _ => ?_
  have hk := contrEquiv1_symm_val (dims K M N) K rfl rfl k
  have el : (dims K M N).lhsIdx (ix2 i j) ((contrEquiv1 (dims K M N) K rfl rfl).symm k) = ix2 k i :=
    funext fun a => Fin.ext (by
      match a with
      | ⟨0, _⟩ => exact ((dims K M N).lhsIdx_val_of_single rfl _ _).trans hk
      | ⟨1, _⟩ => rfl)
  have er : (dims K M N).rhsIdx (ix2 i j) ((contrEquiv1 (dims K M N) K rfl rfl).symm k) = ix2 k j :=
    funext fun a => Fin.ext (by
      match a with
      | ⟨0, _⟩ => exact ((dims K M N).rhsIdx_val_of_single rfl _ _).trans hk
      | ⟨1, _⟩ => rfl)
  rw [el, er]

end Cert.MatmulTN

end
-- ==== Proof.LibLeadUnit.lean ====
/-
  A matrix carried with a leading axis of extent one, read at one entry, over any sizes and any element type.

  * [1, a, b] re-laid as [a, b]: the matrix at (i, j) is the array at (0, i, j).
  * [a, b] re-laid as [1, a, b]: the array at (0, i, j) is the matrix at (i, j).
  * The slab [q : q+1, 0 : a, 0 : b] sliced out of an [n, a, b] array: the slab at (0, i, j) is the array at (q, i, j).
-/
import Idealize.ShloMosaic.Lib.Pipeline.Value
import Idealize.ShloMosaic.Lib.ValueIdx

noncomputable section

namespace Cert.LeadUnit

open Idealize.ShloMosaic Idealize.ShloMosaic.ValueIdx

/-- [1, a, b] re-laid as [a, b] reads, at (i, j), the array at (0, i, j). -/
theorem dropLead_apply {α : Type} {a b : ℕ} (v : (⟨3, ![1, a, b]⟩ : Shape).Idx → α)
    (h : (⟨3, ![1, a, b]⟩ : Shape).ShapeCasts ⟨2, ![a, b]⟩) (i : Fin a) (j : Fin b) :
    shapeCast ⟨2, ![a, b]⟩ v h (ix2 i j) = v (ix3 (0 : Fin 1) i j) := by
  refine shapeCast_apply v h (ix2 i j) (ix3 (0 : Fin 1) i j) ?_
  rw [Shape.rowMajor_val_three, Shape.rowMajor_val_two]
  show ((0 : ℕ) * a + i.val) * b + j.val = i.val * b + j.val
  rw [Nat.zero_mul, Nat.zero_add]

/-- [a, b] re-laid as [1, a, b] reads, at (0, i, j), the matrix at (i, j). -/
theorem addLead_apply {α : Type} {a b : ℕ} (v : (⟨2, ![a, b]⟩ : Shape).Idx → α)
    (h : (⟨2, ![a, b]⟩ : Shape).ShapeCasts ⟨3, ![1, a, b]⟩) (z : Fin 1) (i : Fin a) (j : Fin b) :
    shapeCast ⟨3, ![1, a, b]⟩ v h (ix3 z i j) = v (ix2 i j) := by
  refine shapeCast_apply v h (ix3 z i j) (ix2 i j) ?_
  rw [Shape.rowMajor_val_three, Shape.rowMajor_val_two]
  show i.val * b + j.val = (z.val * a + i.val) * b + j.val
  have hz : z.val = 0 := by have := z.isLt; omega
  rw [hz, Nat.zero_mul, Nat.zero_add]

/-- The slab q of an [n, a, b] array, sliced out as [1, a, b], reads at (0, i, j) the array at (q, i, j). -/
theorem sliceLead_apply {α : Type} {n a b : ℕ} (x : (⟨3, ![n, a, b]⟩ : Shape).Idx → α) (q : Fin n)
    (h : (⟨3, ![n, a, b]⟩ : Shape).Slices ![q.val, 0, 0] ⟨3, ![1, a, b]⟩) (z : Fin 1) (i : Fin a) (j : Fin b) :
    extractStridedSlice ⟨3, ![1, a, b]⟩ ![q.val, 0, 0] x h (ix3 z i j) = x (ix3 q i j) := by
  refine extractStridedSlice_apply _ x h (ix3 z i j) (ix3 q i j) fun c => ?_
  match c with
  | ⟨0, _⟩ =>
    show q.val = q.val + z.val
    have hz : z.val = 0 := by have := z.isLt; omega
    omega
  | ⟨1, _⟩ => show i.val = 0 + i.val; omega
  | ⟨2, _⟩ => show j.val = 0 + j.val; omega

end Cert.LeadUnit

end
-- ==== Proof.Body.lean ====
/-
  The kernel body's arithmetic, read on the extended reals: what it computes from one block of 1024 batch rows.

  On a block x of stimulus rows and a block y of previous-activation rows, with the weight tables w, wr as the two
  scratch buffers hold them (a change of float format is the identity on the extended reals) and the four one-row
  gain / bias blocks, the body

    * stores, as the activation block, row r = outRow x_r y_r  (two products, each read at a row as that row times the
      table; two layer normalisations along the lanes, each rowLN of the row; a maximum with zero between them);
    * adds into each accumulator block, at (i, j), the block's Hebbian sum  Σ_r x_r(i) · (x_r·w)(j)  — the product that
      contracts the first axes of the block and of its image — over what the accumulator held.
-/
import proofs.«151966_j20761871909484_2_alg».proof.Proof.Gen.KernelIdeal.Skeleton
import proofs.«151966_j20761871909484_2_alg».proof.Proof.Spec
import proofs.«151966_j20761871909484_2_alg».proof.Proof.LibPlainMatmul
import proofs.«151966_j20761871909484_2_alg».proof.Proof.LibMatmulTN
import proofs.«151966_j20761871909484_2_alg».proof.Proof.LibLeadUnit

noncomputable section

open scoped BigOperators

namespace Cert.Hebb.Body

open Cert.KernelIdeal Cert.KernelIdeal.Gen
open Idealize.ShloMosaic Idealize.ShloMosaic.ValueIdx Cert.RmsNorm Cert.LayerNorm Cert.Hebb

/-- A block of 1024 batch rows; a weight table as a scratch buffer holds it; a one-row block; an accumulator block. -/
abbrev BT : Type := Vec Ideal S1024x512 .f32
abbrev WB : Type := Vec Ideal S512x512 .bf16
abbrev RT : Type := Vec Ideal S1x512 .f32
abbrev AT : Type := Vec Ideal S1x512x512 .f32

/-- The zero accumulator of the row-block products. -/
abbrev zeroAcc : FVec Ideal S1024x512 .f32 := constant S1024x512 .f32 0x00000000#32

theorem dot_plain : dot_S1024x512_S512x512_S1024x512_1_0_0_1_n_n = DotDims.plain 1024 512 512 := rfl
theorem dot_tn : dot_S1024x512_S1024x512_S512x512_0_0_1_1_n_n = Cert.MatmulTN.dims 1024 512 512 := rfl

/-! ## The two products with the weight tables, at a row -/

/-- The previous-activation block times wr: row r is y_r · wr. -/
theorem row_pay9 (x1 : BT) (wr : WB) (r : Fin 1024) :
    row (M := 1024) (N := 512) (k0_pay9 (F := Ideal) x1 wr) r = rowMat (row (M := 1024) (N := 512) x1 r) (mat (K := 512) (N := 512) wr) := by
  funext q
  show FloatOps.matmul dot_S1024x512_S512x512_S1024x512_1_0_0_1_n_n none (k0_pay8 (F := Ideal) x1) wr
    (constant S1024x512 .f32 0x00000000#32) (ix2 r q) = _
  rw [dot_plain]
  exact Cert.PlainMatmul.matmul_zero_apply 1024 512 512 none (k0_pay8 (F := Ideal) x1) wr r q

/-- The stimulus block times w: row r is x_r · w. -/
theorem row_pay11 (x0 : BT) (w : WB) (r : Fin 1024) :
    row (M := 1024) (N := 512) (k0_pay11 (F := Ideal) (k0_pay7 x0) w zeroAcc) r
      = rowMat (row (M := 1024) (N := 512) x0 r) (mat (K := 512) (N := 512) w) := by
  funext q
  show FloatOps.matmul dot_S1024x512_S512x512_S1024x512_1_0_0_1_n_n none (k0_pay7 (F := Ideal) x0) w
    (constant S1024x512 .f32 0x00000000#32) (ix2 r q) = _
  rw [dot_plain]
  exact Cert.PlainMatmul.matmul_zero_apply 1024 512 512 none (k0_pay7 (F := Ideal) x0) w r q

/-! ## The two layer normalisations -/

/-- The recurrent path's normalisation is the vector unit's layer normalisation of the product. -/
theorem pay10_eq (x1 : BT) (wr : WB) (g6 g7 : RT) (hφ : FKind.Formats .f32)
    (hacc : (0x00000000#32 : BitVec (FTy.bits .f32)) = FKind.add.neutral .f32 hφ) :
    k0_pay10 (F := Ideal) x1 wr g6 g7
      = vectorLN (M := 1024) (N := 512) cN cE (k0_pay9 (F := Ideal) x1 wr) g6 g7 reduces_S1024x512_S1024 hφ hacc
          shapeCasts_S1024_S1024x1 broadcasts_S1024x1_S1024x512 broadcasts_S1x512_S1024x512 := by
  have h : k0_pay10 (F := Ideal) x1 wr g6 g7
      = vectorLN (M := 1024) (N := 512) cN cE (k0_pay9 (F := Ideal) x1 wr) (shapeCast S1x512 g6 shapeCasts_S1x512_S1x512)
          (shapeCast S1x512 g7 shapeCasts_S1x512_S1x512) reduces_S1024x512_S1024 hφ hacc
          shapeCasts_S1024_S1024x1 broadcasts_S1024x1_S1024x512 broadcasts_S1x512_S1024x512 := rfl
  rw [h, shapeCast_self, shapeCast_self]

theorem row_pay10 (x1 : BT) (wr : WB) (g6 g7 : RT) (r : Fin 1024) :
    row (M := 1024) (N := 512) (k0_pay10 (F := Ideal) x1 wr g6 g7) r
      = rowLN cN cE (rowMat (row (M := 1024) (N := 512) x1 r) (mat (K := 512) (N := 512) wr))
          (row (M := 1) (N := 512) g6 0) (row (M := 1) (N := 512) g7 0) := by
  obtain ⟨hφ, hacc⟩ : ∃ hφ : FKind.Formats .f32, (0x00000000#32 : BitVec (FTy.bits .f32)) = FKind.add.neutral .f32 hφ :=
    ⟨.inl rfl, rfl⟩
  rw [pay10_eq x1 wr g6 g7 hφ hacc, vectorLN_row, row_pay9]

/-- The value the second normalisation is applied to. -/
abbrev preAct (v5 : FVec Ideal S1024x512 .bf16) (w : WB) (v35 : FVec Ideal S1024x512 .f32) : FVec Ideal S1024x512 .f32 :=
  maximumf (addf (k0_pay11 (F := Ideal) v5 w zeroAcc) v35) (broadcast S1024x512 (Scalar.ofBits .f32 0x00000000#32))

/-- The stored activation block is the vector unit's layer normalisation of that value. -/
theorem pay12_eq (v5 : FVec Ideal S1024x512 .bf16) (w : WB) (v35 : FVec Ideal S1024x512 .f32) (g4 g5 : RT)
    (hφ : FKind.Formats .f32) (hacc : (0x00000000#32 : BitVec (FTy.bits .f32)) = FKind.add.neutral .f32 hφ) :
    k0_pay12 (F := Ideal) v5 w v35 zeroAcc g4 g5
      = vectorLN (M := 1024) (N := 512) cN cE (preAct v5 w v35) g4 g5 reduces_S1024x512_S1024 hφ hacc
          shapeCasts_S1024_S1024x1 broadcasts_S1024x1_S1024x512 broadcasts_S1x512_S1024x512 := by
  have h : k0_pay12 (F := Ideal) v5 w v35 zeroAcc g4 g5
      = vectorLN (M := 1024) (N := 512) cN cE (preAct v5 w v35) (shapeCast S1x512 g4 shapeCasts_S1x512_S1x512)
          (shapeCast S1x512 g5 shapeCasts_S1x512_S1x512) reduces_S1024x512_S1024 hφ hacc
          shapeCasts_S1024_S1024x1 broadcasts_S1024x1_S1024x512 broadcasts_S1x512_S1024x512 := rfl
  rw [h, shapeCast_self, shapeCast_self]

/-- THE ACTIVATION BLOCK, row by row: outRow of the block's rows. -/
theorem row_final (x0 x1 : BT) (w wr : WB) (g4 g5 g6 g7 : RT) (r : Fin 1024) :
    row (M := 1024) (N := 512) (k0_pay12 (F := Ideal) (k0_pay7 x0) w (k0_pay10 x1 wr g6 g7) zeroAcc g4 g5) r
      = outRow (row (M := 1024) (N := 512) x0 r) (row (M := 1024) (N := 512) x1 r) (mat (K := 512) (N := 512) w)
          (mat (K := 512) (N := 512) wr) (row (M := 1) (N := 512) g4 0) (row (M := 1) (N := 512) g5 0)
          (row (M := 1) (N := 512) g6 0) (row (M := 1) (N := 512) g7 0) := by
  have hin : row (M := 1024) (N := 512) (preAct (k0_pay7 x0) w (k0_pay10 (F := Ideal) x1 wr g6 g7)) r
      = fun q => max (rowMat (row (M := 1024) (N := 512) x0 r) (mat (K := 512) (N := 512) w) q
          + rowLN cN cE (rowMat (row (M := 1024) (N := 512) x1 r) (mat (K := 512) (N := 512) wr))
              (row (M := 1) (N := 512) g6 0) (row (M := 1) (N := 512) g7 0) q) (Ideal.ofBits .f32 0x00000000#32) := by
    funext q
    have h11 := congrFun (row_pay11 x0 w r) q
    have h10 := congrFun (row_pay10 x1 wr g6 g7 r) q
    show max (k0_pay11 (F := Ideal) (k0_pay7 x0) w zeroAcc (ix2 r q) + k0_pay10 (F := Ideal) x1 wr g6 g7 (ix2 r q))
      (Ideal.ofBits .f32 0x00000000#32) = _
    exact congrArg (fun s => max s (Ideal.ofBits .f32 0x00000000#32)) (congrArg₂ (· + ·) h11 h10)
  obtain ⟨hφ, hacc⟩ : ∃ hφ : FKind.Formats .f32, (0x00000000#32 : BitVec (FTy.bits .f32)) = FKind.add.neutral .f32 hφ :=
    ⟨.inl rfl, rfl⟩
  rw [pay12_eq (k0_pay7 x0) w (k0_pay10 (F := Ideal) x1 wr g6 g7) g4 g5 hφ hacc, vectorLN_row, hin]
  rfl

/-! ## The two Hebbian accumulations -/

/-- The stimulus accumulator after the body: what it held plus the block's Hebbian sum. -/
theorem pay14_apply (x0 : BT) (w : WB) (acc : AT) (i j : Fin 512) :
    k0_pay1 (F := Ideal) (k0_pay14 (k0_pay7 x0) w zeroAcc acc) (ix3 (0 : Fin 1) i j)
      = acc (ix3 (0 : Fin 1) i j)
        + ∑ r : Fin 1024, term (row (M := 1024) (N := 512) x0 r) (mat (K := 512) (N := 512) w) i j := by
  show shapeCast S1x512x512 (k0_pay14 (F := Ideal) (k0_pay7 x0) w zeroAcc acc) shapeCasts_S512x512_S1x512x512
    (ix3 (0 : Fin 1) i j) = _
  rw [Cert.LeadUnit.addLead_apply (a := 512) (b := 512)]
  show shapeCast S512x512 acc shapeCasts_S1x512x512_S512x512 (ix2 i j)
      + FloatOps.matmul dot_S1024x512_S1024x512_S512x512_0_0_1_1_n_n none (k0_pay7 (F := Ideal) x0)
          (truncf .bf16 (k0_pay11 (F := Ideal) (k0_pay7 x0) w zeroAcc) bitsLt_bf16_f32)
          (constant S512x512 .f32 0x00000000#32) (ix2 i j) = _
  rw [Cert.LeadUnit.dropLead_apply (a := 512) (b := 512), dot_tn, Cert.MatmulTN.matmul_zero_apply]
  refine congrArg (acc (ix3 (0 : Fin 1) i j) + ·) (Finset.sum_congr rfl fun r _ => ?_)
  exact congrArg (fun s => x0 (ix2 r i) * s) (congrFun (row_pay11 x0 w r) j)

/-- The previous-activation accumulator after the body: what it held plus the block's Hebbian sum. -/
theorem pay13_apply (x1 : BT) (wr : WB) (acc : AT) (i j : Fin 512) :
    k0_pay2 (F := Ideal) (k0_pay13 (k0_pay8 x1) (k0_pay9 x1 wr)) acc (ix3 (0 : Fin 1) i j)
      = acc (ix3 (0 : Fin 1) i j)
        + ∑ r : Fin 1024, term (row (M := 1024) (N := 512) x1 r) (mat (K := 512) (N := 512) wr) i j := by
  show shapeCast S1x512x512 (addf (shapeCast S512x512 acc shapeCasts_S1x512x512_S512x512)
      (k0_pay13 (F := Ideal) (k0_pay8 x1) (k0_pay9 x1 wr))) shapeCasts_S512x512_S1x512x512 (ix3 (0 : Fin 1) i j) = _
  rw [Cert.LeadUnit.addLead_apply (a := 512) (b := 512)]
  show shapeCast S512x512 acc shapeCasts_S1x512x512_S512x512 (ix2 i j)
      + FloatOps.matmul dot_S1024x512_S1024x512_S512x512_0_0_1_1_n_n none (k0_pay8 (F := Ideal) x1)
          (truncf .bf16 (k0_pay9 (F := Ideal) x1 wr) bitsLt_bf16_f32)
          (constant S512x512 .f32 0x00000000#32) (ix2 i j) = _
  rw [Cert.LeadUnit.dropLead_apply (a := 512) (b := 512), dot_tn, Cert.MatmulTN.matmul_zero_apply]
  refine congrArg (acc (ix3 (0 : Fin 1) i j) + ·) (Finset.sum_congr rfl fun r _ => ?_)
  exact congrArg (fun s => x1 (ix2 r i) * s) (congrFun (row_pay9 x1 wr r) j)

/-- The accumulators' reset value is zero everywhere. -/
theorem pay3_apply (i j : Fin 512) : k0_pay3 (F := Ideal) (ix3 (0 : Fin 1) i j) = 0 := by
  show shapeCast S1x512x512 (broadcast (α := Ideal .f32) S512x512 (Scalar.ofBits .f32 0x00000000#32))
    shapeCasts_S512x512_S1x512x512 (ix3 (0 : Fin 1) i j) = _
  rw [Cert.LeadUnit.addLead_apply (a := 512) (b := 512)]
  exact Ideal.ofBits_zero_f32

theorem pay4_apply (i j : Fin 512) : k0_pay4 (F := Ideal) (ix3 (0 : Fin 1) i j) = 0 := by
  show shapeCast S1x512x512 (broadcast (α := Ideal .f32) S512x512 (Scalar.ofBits .f32 0x00000000#32))
    shapeCasts_S512x512_S1x512x512 (ix3 (0 : Fin 1) i j) = _
  rw [Cert.LeadUnit.addLead_apply (a := 512) (b := 512)]
  exact Ideal.ofBits_zero_f32

/-! ## The scratch copies of the weight tables -/

/-- A weight table stored to scratch in the narrower format is, on the extended reals, the table. -/
theorem mat_pay5 (v : Vec Ideal S512x512 .f32) : mat (K := 512) (N := 512) (k0_pay5 (F := Ideal) v) = mat (K := 512) (N := 512) v := by
  have h : k0_pay5 (F := Ideal) v = shapeCast S512x512 (truncf (F := Ideal) .bf16 v bitsLt_bf16_f32) shapeCasts_S512x512_S512x512 := rfl
  rw [h, shapeCast_self]
  rfl

theorem mat_pay6 (v : Vec Ideal S512x512 .f32) : mat (K := 512) (N := 512) (k0_pay6 (F := Ideal) v) = mat (K := 512) (N := 512) v := by
  have h : k0_pay6 (F := Ideal) v = shapeCast S512x512 (truncf (F := Ideal) .bf16 v bitsLt_bf16_f32) shapeCasts_S512x512_S512x512 := rfl
  rw [h, shapeCast_self]
  rfl

/-! ## A block that is rows n·1024 … of the batch -/

/-- If the stimulus block is rows 1024·n … of the stimulus and the scratch holds W, the accumulator gains block n's
    Hebbian sum. -/
theorem heb_step (X : (⟨2, ![32768, 512]⟩ : Shape).Idx → EReal) (Wm : Fin 512 → Fin 512 → EReal) (n : ℕ)
    (x0 : BT) (w : WB) (acc : AT)
    (hx : ∀ (r : Fin 1024) (k : Fin 512) (hb : n * 1024 + r.val < 32768), x0 (ix2 r k) = X (ix2 ⟨n * 1024 + r.val, hb⟩ k))
    (hn : n < 32) (hw : mat (K := 512) (N := 512) w = Wm) (i j : Fin 512) :
    k0_pay1 (F := Ideal) (k0_pay14 (k0_pay7 x0) w zeroAcc acc) (ix3 (0 : Fin 1) i j)
      = acc (ix3 (0 : Fin 1) i j) + blockTerm 1024 X Wm n i j := by
  rw [pay14_apply x0 w acc i j, blockTerm_eq_sum_fin, hw]
  refine congrArg (acc (ix3 (0 : Fin 1) i j) + ·) (Finset.sum_congr rfl fun r _ => ?_)
  have hb : n * 1024 + r.val < 32768 := by have := r.isLt; omega
  rw [rowAt_of_lt X _ hb]
  have hr : row (M := 1024) (N := 512) x0 r = row (M := 32768) (N := 512) X ⟨n * 1024 + r.val, hb⟩ := funext fun k => hx r k hb
  rw [hr]

/-- The same for the previous-activation block, Wr and the second accumulator. -/
theorem rec_step (X : (⟨2, ![32768, 512]⟩ : Shape).Idx → EReal) (Wm : Fin 512 → Fin 512 → EReal) (n : ℕ)
    (x1 : BT) (wr : WB) (acc : AT)
    (hx : ∀ (r : Fin 1024) (k : Fin 512) (hb : n * 1024 + r.val < 32768), x1 (ix2 r k) = X (ix2 ⟨n * 1024 + r.val, hb⟩ k))
    (hn : n < 32) (hw : mat (K := 512) (N := 512) wr = Wm) (i j : Fin 512) :
    k0_pay2 (F := Ideal) (k0_pay13 (k0_pay8 x1) (k0_pay9 x1 wr)) acc (ix3 (0 : Fin 1) i j)
      = acc (ix3 (0 : Fin 1) i j) + blockTerm 1024 X Wm n i j := by
  rw [pay13_apply x1 wr acc i j, blockTerm_eq_sum_fin, hw]
  refine congrArg (acc (ix3 (0 : Fin 1) i j) + ·) (Finset.sum_congr rfl fun r _ => ?_)
  have hb : n * 1024 + r.val < 32768 := by have := r.isLt; omega
  rw [rowAt_of_lt X _ hb]
  have hr : row (M := 1024) (N := 512) x1 r = row (M := 32768) (N := 512) X ⟨n * 1024 + r.val, hb⟩ := funext fun k => hx r k hb
  rw [hr]

/-- If the two row blocks are rows 1024·n … of the two batch arrays, the scratch holds the two tables and the one-row
    blocks hold the four gain / bias vectors, the activation block at (r, q) is the specification's array at
    (1024·n + r, q). -/
theorem act_block (X Xp : (⟨2, ![32768, 512]⟩ : Shape).Idx → EReal) (Wa Wra : (⟨2, ![512, 512]⟩ : Shape).Idx → EReal)
    (lag lab lrg lrb : (⟨1, ![512]⟩ : Shape).Idx → EReal) (n : ℕ)
    (x0 x1 : BT) (w wr : WB) (g4 g5 g6 g7 : RT)
    (hx0 : ∀ (r : Fin 1024) (k : Fin 512) (hb : n * 1024 + r.val < 32768), x0 (ix2 r k) = X (ix2 ⟨n * 1024 + r.val, hb⟩ k))
    (hx1 : ∀ (r : Fin 1024) (k : Fin 512) (hb : n * 1024 + r.val < 32768), x1 (ix2 r k) = Xp (ix2 ⟨n * 1024 + r.val, hb⟩ k))
    (hw : mat (K := 512) (N := 512) w = mat Wa) (hwr : mat (K := 512) (N := 512) wr = mat Wra)
    (h4 : row (M := 1) (N := 512) g4 0 = vec lag) (h5 : row (M := 1) (N := 512) g5 0 = vec lab)
    (h6 : row (M := 1) (N := 512) g6 0 = vec lrg) (h7 : row (M := 1) (N := 512) g7 0 = vec lrb)
    (r : Fin 1024) (q : Fin 512) (hb : n * 1024 + r.val < 32768) :
    k0_pay12 (F := Ideal) (k0_pay7 x0) w (k0_pay10 x1 wr g6 g7) zeroAcc g4 g5 (ix2 r q)
      = outArr X Xp Wa Wra lag lab lrg lrb (ix2 ⟨n * 1024 + r.val, hb⟩ q) := by
  have h := congrFun (row_final x0 x1 w wr g4 g5 g6 g7 r) q
  have hr0 : row (M := 1024) (N := 512) x0 r = row (M := 32768) (N := 512) X ⟨n * 1024 + r.val, hb⟩ := funext fun k => hx0 r k hb
  have hr1 : row (M := 1024) (N := 512) x1 r = row (M := 32768) (N := 512) Xp ⟨n * 1024 + r.val, hb⟩ := funext fun k => hx1 r k hb
  rw [hr0, hr1, hw, hwr, h4, h5, h6, h7] at h
  rw [outArr_ix2]
  exact h

end Cert.Hebb.Body

end
-- ==== Proof.Invariant.lean ====
/-
  What the buffers hold after each grid point, by induction along the grid.

  After point n (core n / 16, step n % 16):
    * the activation block is the body's activation arithmetic on point n's two row blocks, with the scratch holding the
      two weight tables — at every point, since the scratch is written at a core's first step and only read afterwards;
    * each accumulator block holds the sum of the Hebbian sums of the blocks  n − n % 16, …, n  — the blocks this core has
      met so far: at a core's first step the zero block plus the first block's sum, at a later step what the point
      before left plus this block's sum;
    * the two scratch buffers hold W and Wr in the narrower format.
-/
import proofs.«151966_j20761871909484_2_alg».proof.Proof.Pieces
import proofs.«151966_j20761871909484_2_alg».proof.Proof.Blocks
import proofs.«151966_j20761871909484_2_alg».proof.Proof.Body

noncomputable section

open scoped BigOperators

namespace Cert.Hebb.Inv

open Cert.KernelIdeal Cert.KernelIdeal.Gen
open Idealize.ShloMosaic Idealize.ShloMosaic.TcCoe Idealize.ShloMosaic.ValueIdx Idealize.SL.Sem
open Cert.RmsNorm Cert.LayerNorm Cert.Hebb Cert.Hebb.Body Cert.Hebb.Pieces Cert.Hebb.Blocks

variable (m : (ℓ : Loc nD τ sig) → Buf (Elt Ideal) ℓ)

/-- The activation block of point t: the body's arithmetic on the point's row blocks and the two tables. -/
def actBlock (c : Dev nD) (t : Fin cfg0.N) : Vec Ideal S1024x512 .f32 :=
  k0_pay12 (F := Ideal) (k0_pay7 (iblk m c 0 t)) (k0_pay5 (V m c main_arg2))
    (k0_pay10 (iblk m c 1 t) (k0_pay6 (V m c main_arg3)) (iblk m c 6 t) (iblk m c 7 t)) zeroAcc (iblk m c 4 t) (iblk m c 5 t)

/-- The Hebbian sums of the blocks a core has met up to point n, for the stimulus and W. -/
abbrev hebAt (c : Dev nD) (n : ℕ) (i j : Fin 512) : EReal :=
  corePart (R := 32768) (K := 512) (N := 512) 1024 (V m c main_arg0) (mat (K := 512) (N := 512) (V m c main_arg2))
    (n - n % 16) (n % 16 + 1) i j

/-- The same for the previous activation and Wr. -/
abbrev recAt (c : Dev nD) (n : ℕ) (i j : Fin 512) : EReal :=
  corePart (R := 32768) (K := 512) (N := 512) 1024 (V m c main_arg1) (mat (K := 512) (N := 512) (V m c main_arg3))
    (n - n % 16) (n % 16 + 1) i j

/-- What the outputs' buffers and the scratch hold after point n. -/
structure Holds (c : Dev nD) (n : ℕ) (h : n < cfg0.N) : Prop where
  act : (outsAt0 m c n h).1 = actBlock m c ⟨n, h⟩
  accS : ∀ i j : Fin 512, (outsAt0 m c n h).2.1 (ix3 (0 : Fin 1) i j) = hebAt m c n i j
  accP : ∀ i j : Fin 512, (outsAt0 m c n h).2.2.1 (ix3 (0 : Fin 1) i j) = recAt m c n i j
  sW : (outsAt0 m c n h).2.2.2.1 = k0_pay5 (F := Ideal) (V m c main_arg2)
  sWr : (outsAt0 m c n h).2.2.2.2 = k0_pay6 (F := Ideal) (V m c main_arg3)

/-- At a core's first step. -/
theorem holds_A (c : Dev nD) (t : Fin cfg0.N) (h0 : t.val % 16 = 0) : Holds m c t.val t.isLt := by
  have hN : t.val < 32 := lt_of_lt_of_eq t.isLt N_0
  have e := outsAt0_A m c t h0
  have hbase : t.val - t.val % 16 = t.val := by omega
  have hcnt : t.val % 16 + 1 = 1 := by omega
  have e2 : (iblk m c 2 t : Vec Ideal S512x512 .f32) = V m c main_arg2 := iblk2_eq m c t
  have e3 : (iblk m c 3 t : Vec Ideal S512x512 .f32) = V m c main_arg3 := iblk3_eq m c t
  refine ⟨?_, ?_, ?_, ?_, ?_⟩
  · rw [e]; dsimp only
    rw [out_A_8, e2, e3]
    rfl
  · intro i j
    rw [e]; dsimp only
    rw [out_A_9, e2]
    refine (heb_step (V m c main_arg0) (mat (K := 512) (N := 512) (V m c main_arg2)) t.val (iblk m c 0 t)
      (k0_pay5 (F := Ideal) (V m c main_arg2)) (k0_pay3 (F := Ideal)) (fun r k hb => iblk0_apply m c t r k hb) hN
      (mat_pay5 (V m c main_arg2)) i j).trans ?_
    rw [pay3_apply, zero_add]
    show _ = corePart 1024 _ _ (t.val - t.val % 16) (t.val % 16 + 1) i j
    rw [hbase, hcnt, corePart_one]
  · intro i j
    rw [e]; dsimp only
    rw [out_A_10, e3]
    refine (rec_step (V m c main_arg1) (mat (K := 512) (N := 512) (V m c main_arg3)) t.val (iblk m c 1 t)
      (k0_pay6 (F := Ideal) (V m c main_arg3)) (k0_pay4 (F := Ideal)) (fun r k hb => iblk1_apply m c t r k hb) hN
      (mat_pay6 (V m c main_arg3)) i j).trans ?_
    rw [pay4_apply, zero_add]
    show _ = corePart 1024 _ _ (t.val - t.val % 16) (t.val % 16 + 1) i j
    rw [hbase, hcnt, corePart_one]
  · rw [e]; dsimp only
    rw [sout_A_0, e2]
  · rw [e]; dsimp only
    rw [sout_A_1, e3]

/-- At a later step, from the point before. -/
theorem holds_B (c : Dev nD) (t : Fin cfg0.N) (h0 : ¬t.val % 16 = 0)
    (ih : Holds m c (t.val - 1) (Nat.lt_of_le_of_lt (Nat.sub_le _ _) t.isLt)) : Holds m c t.val t.isLt := by
  have hN : t.val < 32 := lt_of_lt_of_eq t.isLt N_0
  have e := outsAt0_B m c t h0
  have hbase : (t.val - 1) - (t.val - 1) % 16 = t.val - t.val % 16 := by omega
  have hcnt : (t.val - 1) % 16 + 1 = t.val % 16 := by omega
  have hpos : (t.val - t.val % 16) + t.val % 16 = t.val := by omega
  refine ⟨?_, ?_, ?_, ?_, ?_⟩
  · rw [e]; dsimp only
    rw [out_B_8, ih.sW, ih.sWr]
    rfl
  · intro i j
    rw [e]; dsimp only
    rw [out_B_9, ih.sW]
    refine (heb_step (V m c main_arg0) (mat (K := 512) (N := 512) (V m c main_arg2)) t.val (iblk m c 0 t)
      (k0_pay5 (F := Ideal) (V m c main_arg2)) _ (fun r k hb => iblk0_apply m c t r k hb) hN
      (mat_pay5 (V m c main_arg2)) i j).trans ?_
    rw [ih.accS i j]
    show corePart 1024 _ _ ((t.val - 1) - (t.val - 1) % 16) ((t.val - 1) % 16 + 1) i j + _
      = corePart 1024 _ _ (t.val - t.val % 16) (t.val % 16 + 1) i j
    rw [hbase, hcnt, corePart_succ, hpos]
  · intro i j
    rw [e]; dsimp only
    rw [out_B_10, ih.sWr]
    refine (rec_step (V m c main_arg1) (mat (K := 512) (N := 512) (V m c main_arg3)) t.val (iblk m c 1 t)
      (k0_pay6 (F := Ideal) (V m c main_arg3)) _ (fun r k hb => iblk1_apply m c t r k hb) hN
      (mat_pay6 (V m c main_arg3)) i j).trans ?_
    rw [ih.accP i j]
    show corePart 1024 _ _ ((t.val - 1) - (t.val - 1) % 16) ((t.val - 1) % 16 + 1) i j + _
      = corePart 1024 _ _ (t.val - t.val % 16) (t.val % 16 + 1) i j
    rw [hbase, hcnt, corePart_succ, hpos]
  · rw [e]; dsimp only
    exact ih.sW
  · rw [e]; dsimp only
    exact ih.sWr

/-- After every point. -/
theorem holds (c : Dev nD) : ∀ (n : ℕ) (h : n < cfg0.N), Holds m c n h := by
  intro n
  induction n with
  | zero => intro h; exact holds_A m c ⟨0, h⟩ rfl
  | succ n ih =>
    intro h
    by_cases h0 : (n + 1) % 16 = 0
    · exact holds_A m c ⟨n + 1, h⟩ h0
    · exact holds_B m c ⟨n + 1, h⟩ h0 (ih (Nat.lt_of_succ_lt h))

end Cert.Hebb.Inv

end
-- ==== Proof.Arrays.lean ====
/-
  The three arrays the region leaves, as whole-array functions of the arguments.

  The activation array is written back block by block, one block of 1024 rows per grid point, each block the
  specification's rows 1024·t … 1024·t + 1023; the 32 blocks tile the array, so it ends holding the specification's
  activation array. Each accumulator array [2, 512, 512] is written back twice, after the last step of each core
  (points 15 and 31), slab q receiving what core q accumulated: the Hebbian sums of its 16 blocks.
-/
import proofs.«151966_j20761871909484_2_alg».proof.Proof.Invariant
import proofs.«151966_j20761871909484_2_alg».proof.Proof.LibColRowBroadcast

noncomputable section

open scoped BigOperators

namespace Cert.Hebb.Arrays

open Cert.KernelIdeal Cert.KernelIdeal.Gen
open Idealize.ShloMosaic Idealize.ShloMosaic.TcCoe Idealize.ShloMosaic.ValueIdx Idealize.SL.Sem
open Idealize.ShloMosaic.Pipeline (Dat)
open Cert.RmsNorm Cert.LayerNorm Cert.Hebb Cert.Hebb.Body Cert.Hebb.Blocks Cert.Hebb.Inv

variable (m : (ℓ : Loc nD τ sig) → Buf (Elt Ideal) ℓ)

/-! ## The activation array -/

/-- The specification's activation array of the arrays the region finds. -/
abbrev G8 (c : Dev nD) : S32768x512.Idx → EReal :=
  outArr (R := 32768) (K := 512) (N := 512) (V m c main_arg0) (V m c main_arg1) (V m c main_arg2) (V m c main_arg3)
    (m ((c : Thread nD τ).loc main_arg6)) (m ((c : Thread nD τ).loc main_arg7))
    (m ((c : Thread nD τ).loc main_arg8)) (m ((c : Thread nD τ).loc main_arg9))

/-- A one-row block the host re-laid from a vector reads, in its one row, the vector. -/
theorem row_of_cast (u : S512.Idx → EReal) (g : Vec Ideal S1x512 .f32)
    (hg : (g : S1x512.Idx → EReal) = shapeCast S1x512 u shapeCasts_S512_S1x512) :
    row (M := 1) (N := 512) g 0 = vec u := by
  funext q
  show g (ix2 (0 : Fin 1) q) = u (ix1 q)
  rw [hg]
  exact Cert.ColRowBroadcast.rowCast_apply u shapeCasts_S512_S1x512 0 q

/-- WHAT POINT t WRITES BACK of the activation is block t of the specification's array. -/
theorem flushed8_eq (c : Dev nD) (t : Fin cfg0.N) :
    (dats m 0 c).flushed 8 t = ((cfg0.win 8).blk t).view.read (Elt Ideal) (G8 m c) := by
  have hN : t.val < 32 := lt_of_lt_of_eq t.isLt N_0
  obtain ⟨-, -, -, -, h0, h1⟩ := idx_rows t
  show (cfg0.win 8).cut (grid0.coords t) ((dats m 0 c).after 8 t) = _
  rw [after0_8, (holds m c t.val t.isLt).act]
  funext j
  have hj0 : (j 0).val < 1024 := (j 0).isLt
  have hj1 : (j 1).val < 512 := (j 1).isLt
  have hb : t.val * 1024 + (j 0).val < 32768 := by omega
  have hemb : ((cfg0.win 8).blk t).view.emb j
      = ix2 (⟨t.val * 1024 + (j 0).val, hb⟩ : Fin 32768) (⟨(j 1).val, hj1⟩ : Fin 512) := by
    funext a; apply Fin.ext
    match a with
    | ⟨0, _⟩ => show win0_8.index t (0 : Fin 2) * 1024 + 1 * (j 0).val = t.val * 1024 + (j 0).val; omega
    | ⟨1, _⟩ => show win0_8.index t (1 : Fin 2) * 512 + 1 * (j 1).val = (j 1).val; omega
  show actBlock m c t j = G8 m c (((cfg0.win 8).blk t).view.emb j)
  rw [hemb]
  have hjj : j = ix2 (⟨(j 0).val, hj0⟩ : Fin 1024) (⟨(j 1).val, hj1⟩ : Fin 512) :=
    funext fun a => Fin.ext (by match a with | ⟨0, _⟩ => rfl | ⟨1, _⟩ => rfl)
  refine (congrArg (actBlock m c t) hjj).trans ?_
  exact act_block (V m c main_arg0) (V m c main_arg1) (V m c main_arg2) (V m c main_arg3)
    (m ((c : Thread nD τ).loc main_arg6)) (m ((c : Thread nD τ).loc main_arg7))
    (m ((c : Thread nD τ).loc main_arg8)) (m ((c : Thread nD τ).loc main_arg9)) t.val
    (iblk m c 0 t) (iblk m c 1 t) (k0_pay5 (F := Ideal) (V m c main_arg2)) (k0_pay6 (F := Ideal) (V m c main_arg3))
    (iblk m c 4 t) (iblk m c 5 t) (iblk m c 6 t) (iblk m c 7 t)
    (fun r k hb => iblk0_apply m c t r k hb) (fun r k hb => iblk1_apply m c t r k hb)
    (mat_pay5 (V m c main_arg2)) (mat_pay6 (V m c main_arg3))
    (row_of_cast _ _ ((iblk4_eq m c t).trans (V_v0 m c))) (row_of_cast _ _ ((iblk5_eq m c t).trans (V_v1 m c)))
    (row_of_cast _ _ ((iblk6_eq m c t).trans (V_v2 m c))) (row_of_cast _ _ ((iblk7_eq m c t).trans (V_v3 m c)))
    ⟨(j 0).val, hj0⟩ ⟨(j 1).val, hj1⟩ hb

/-- An index of the activation array is in point t's block iff each coordinate is in the block's range. -/
theorem mem_blk8 (t : Fin cfg0.N) (i : S32768x512.Idx) :
    i ∈ ((cfg0.win 8).blk t).view.set ↔ ∀ a : Fin 2, win0_8.index t a * S1024x512.size a ≤ (i a).val
      ∧ (i a).val < win0_8.index t a * S1024x512.size a + S1024x512.size a := by
  show i ∈ ((View.whole main_v4_0).slice (win0_8.rect t)).set ↔ _
  rw [View.set_slice_whole, Rect.mem_set_unit]
  exact Iff.rfl

/-- Every row of the activation array is in the block of the point its row number divided by 1024 names. -/
theorem cover8 (i : S32768x512.Idx) :
    ∃ t : Fin cfg0.N, (cfg0.win 8).flush t = true ∧ i ∈ ((cfg0.win 8).blk t).view.set := by
  have hi0 : (i 0).val < 32768 := (i 0).isLt
  have hi1 : (i 1).val < 512 := (i 1).isLt
  have hN : cfg0.N = 32 := N_0
  let t : Fin cfg0.N := ⟨(i 0).val / 1024, by rw [hN]; omega⟩
  obtain ⟨-, -, -, -, h0, h1⟩ := idx_rows t
  have ht : t.val = (i 0).val / 1024 := rfl
  refine ⟨t, flush0_8 t, ?_⟩
  rw [mem_blk8]
  intro a
  match a with
  | ⟨0, _⟩ =>
    show win0_8.index t (0 : Fin 2) * 1024 ≤ (i 0).val ∧ (i 0).val < win0_8.index t (0 : Fin 2) * 1024 + 1024
    omega
  | ⟨1, _⟩ =>
    show win0_8.index t (1 : Fin 2) * 512 ≤ (i 1).val ∧ (i 1).val < win0_8.index t (1 : Fin 2) * 512 + 512
    omega

/-- THE ACTIVATION ARRAY after the run. -/
theorem final8 (c : Dev nD) : (dats m 0 c).arrAt 8 cfg0.N = G8 m c :=
  (dats m 0 c).arrAt_eq_of_cover 8 (G8 m c) (fun t _ => flushed8_eq m c t) (cover8)

/-! ## The two accumulator arrays -/

/-- Slab q of the stimulus accumulator array: the Hebbian sums of core q's 16 blocks. -/
abbrev G9 (c : Dev nD) : S2x512x512.Idx → EReal := fun idx =>
  corePart (R := 32768) (K := 512) (N := 512) 1024 (V m c main_arg0) (mat (K := 512) (N := 512) (V m c main_arg2))
    (16 * (idx 0).val) 16 (idx 1) (idx 2)

/-- Slab q of the previous-activation accumulator array. -/
abbrev G10 (c : Dev nD) : S2x512x512.Idx → EReal := fun idx =>
  corePart (R := 32768) (K := 512) (N := 512) 1024 (V m c main_arg1) (mat (K := 512) (N := 512) (V m c main_arg3))
    (16 * (idx 0).val) 16 (idx 1) (idx 2)

/-- WHAT A CORE'S LAST POINT WRITES BACK of the stimulus accumulator is the core's slab. -/
theorem flushed9_eq (c : Dev nD) (t : Fin cfg0.N) (hf : (cfg0.win 9).flush t = true) :
    (dats m 0 c).flushed 9 t = ((cfg0.win 9).blk t).view.read (Elt Ideal) (G9 m c) := by
  have hN : t.val < 32 := lt_of_lt_of_eq t.isLt N_0
  have h15 : t.val % 16 = 15 := (flush0_9 t).mp hf
  obtain ⟨⟨h0, h1, h2⟩, -⟩ := idx_core t
  show (cfg0.win 9).cut (grid0.coords t) ((dats m 0 c).after 9 t) = _
  rw [after0_9]
  funext j
  have hj0 : (j 0).val < 1 := (j 0).isLt
  have hj1 : (j 1).val < 512 := (j 1).isLt
  have hj2 : (j 2).val < 512 := (j 2).isLt
  have hq : t.val / 16 < 2 := by omega
  have hemb : ((cfg0.win 9).blk t).view.emb j
      = ix3 (⟨t.val / 16, hq⟩ : Fin 2) (⟨(j 1).val, hj1⟩ : Fin 512) (⟨(j 2).val, hj2⟩ : Fin 512) := by
    funext a; apply Fin.ext
    match a with
    | ⟨0, _⟩ => show win0_9.index t (0 : Fin 3) * 1 + 1 * (j 0).val = t.val / 16; omega
    | ⟨1, _⟩ => show win0_9.index t (1 : Fin 3) * 512 + 1 * (j 1).val = (j 1).val; omega
    | ⟨2, _⟩ => show win0_9.index t (2 : Fin 3) * 512 + 1 * (j 2).val = (j 2).val; omega
  show (outsAt0 m c t.val t.isLt).2.1 j = G9 m c (((cfg0.win 9).blk t).view.emb j)
  rw [hemb]
  have hjj : j = ix3 (0 : Fin 1) (⟨(j 1).val, hj1⟩ : Fin 512) (⟨(j 2).val, hj2⟩ : Fin 512) :=
    funext fun a => Fin.ext (by
      match a with
      | ⟨0, _⟩ => show (j 0).val = 0; omega
      | ⟨1, _⟩ => rfl
      | ⟨2, _⟩ => rfl)
  refine (congrArg ((outsAt0 m c t.val t.isLt).2.1) hjj).trans ?_
  rw [(holds m c t.val t.isLt).accS]
  show corePart 1024 _ _ (t.val - t.val % 16) (t.val % 16 + 1) _ _ = corePart 1024 _ _ (16 * (t.val / 16)) 16 _ _
  have hbase : t.val - t.val % 16 = 16 * (t.val / 16) := by omega
  rw [hbase, h15]

/-- WHAT A CORE'S LAST POINT WRITES BACK of the previous-activation accumulator is the core's slab. -/
theorem flushed10_eq (c : Dev nD) (t : Fin cfg0.N) (hf : (cfg0.win 10).flush t = true) :
    (dats m 0 c).flushed 10 t = ((cfg0.win 10).blk t).view.read (Elt Ideal) (G10 m c) := by
  have hN : t.val < 32 := lt_of_lt_of_eq t.isLt N_0
  have h15 : t.val % 16 = 15 := (flush0_10 t).mp hf
  obtain ⟨-, h0, h1, h2⟩ := idx_core t
  show (cfg0.win 10).cut (grid0.coords t) ((dats m 0 c).after 10 t) = _
  rw [after0_10]
  funext j
  have hj0 : (j 0).val < 1 := (j 0).isLt
  have hj1 : (j 1).val < 512 := (j 1).isLt
  have hj2 : (j 2).val < 512 := (j 2).isLt
  have hq : t.val / 16 < 2 := by omega
  have hemb : ((cfg0.win 10).blk t).view.emb j
      = ix3 (⟨t.val / 16, hq⟩ : Fin 2) (⟨(j 1).val, hj1⟩ : Fin 512) (⟨(j 2).val, hj2⟩ : Fin 512) := by
    funext a; apply Fin.ext
    match a with
    | ⟨0, _⟩ => show win0_10.index t (0 : Fin 3) * 1 + 1 * (j 0).val = t.val / 16; omega
    | ⟨1, _⟩ => show win0_10.index t (1 : Fin 3) * 512 + 1 * (j 1).val = (j 1).val; omega
    | ⟨2, _⟩ => show win0_10.index t (2 : Fin 3) * 512 + 1 * (j 2).val = (j 2).val; omega
  show (outsAt0 m c t.val t.isLt).2.2.1 j = G10 m c (((cfg0.win 10).blk t).view.emb j)
  rw [hemb]
  have hjj : j = ix3 (0 : Fin 1) (⟨(j 1).val, hj1⟩ : Fin 512) (⟨(j 2).val, hj2⟩ : Fin 512) :=
    funext fun a => Fin.ext (by
      match a with
      | ⟨0, _⟩ => show (j 0).val = 0; omega
      | ⟨1, _⟩ => rfl
      | ⟨2, _⟩ => rfl)
  refine (congrArg ((outsAt0 m c t.val t.isLt).2.2.1) hjj).trans ?_
  rw [(holds m c t.val t.isLt).accP]
  show corePart 1024 _ _ (t.val - t.val % 16) (t.val % 16 + 1) _ _ = corePart 1024 _ _ (16 * (t.val / 16)) 16 _ _
  have hbase : t.val - t.val % 16 = 16 * (t.val / 16) := by omega
  rw [hbase, h15]

/-- An index of an accumulator array is in point t's block iff each coordinate is in the block's range. -/
theorem mem_blk9 (t : Fin cfg0.N) (i : S2x512x512.Idx) :
    i ∈ ((cfg0.win 9).blk t).view.set ↔ ∀ a : Fin 3, win0_9.index t a * S1x512x512.size a ≤ (i a).val
      ∧ (i a).val < win0_9.index t a * S1x512x512.size a + S1x512x512.size a := by
  show i ∈ ((View.whole main_v4_1).slice (win0_9.rect t)).set ↔ _
  rw [View.set_slice_whole, Rect.mem_set_unit]
  exact Iff.rfl

theorem mem_blk10 (t : Fin cfg0.N) (i : S2x512x512.Idx) :
    i ∈ ((cfg0.win 10).blk t).view.set ↔ ∀ a : Fin 3, win0_10.index t a * S1x512x512.size a ≤ (i a).val
      ∧ (i a).val < win0_10.index t a * S1x512x512.size a + S1x512x512.size a := by
  show i ∈ ((View.whole main_v4_2).slice (win0_10.rect t)).set ↔ _
  rw [View.set_slice_whole, Rect.mem_set_unit]
  exact Iff.rfl

/-- Slab q is written back by core q's last point, 16·q + 15. -/
theorem cover9 (i : S2x512x512.Idx) :
    ∃ t : Fin cfg0.N, (cfg0.win 9).flush t = true ∧ i ∈ ((cfg0.win 9).blk t).view.set := by
  have hi0 : (i 0).val < 2 := (i 0).isLt
  have hi1 : (i 1).val < 512 := (i 1).isLt
  have hi2 : (i 2).val < 512 := (i 2).isLt
  have hN : cfg0.N = 32 := N_0
  let t : Fin cfg0.N := ⟨16 * (i 0).val + 15, by rw [hN]; omega⟩
  obtain ⟨⟨h0, h1, h2⟩, -⟩ := idx_core t
  have ht : t.val = 16 * (i 0).val + 15 := rfl
  refine ⟨t, (flush0_9 t).mpr (by omega), ?_⟩
  rw [mem_blk9]
  intro a
  match a with
  | ⟨0, _⟩ =>
    show win0_9.index t (0 : Fin 3) * 1 ≤ (i 0).val ∧ (i 0).val < win0_9.index t (0 : Fin 3) * 1 + 1
    omega
  | ⟨1, _⟩ =>
    show win0_9.index t (1 : Fin 3) * 512 ≤ (i 1).val ∧ (i 1).val < win0_9.index t (1 : Fin 3) * 512 + 512
    omega
  | ⟨2, _⟩ =>
    show win0_9.index t (2 : Fin 3) * 512 ≤ (i 2).val ∧ (i 2).val < win0_9.index t (2 : Fin 3) * 512 + 512
    omega

theorem cover10 (i : S2x512x512.Idx) :
    ∃ t : Fin cfg0.N, (cfg0.win 10).flush t = true ∧ i ∈ ((cfg0.win 10).blk t).view.set := by
  have hi0 : (i 0).val < 2 := (i 0).isLt
  have hi1 : (i 1).val < 512 := (i 1).isLt
  have hi2 : (i 2).val < 512 := (i 2).isLt
  have hN : cfg0.N = 32 := N_0
  let t : Fin cfg0.N := ⟨16 * (i 0).val + 15, by rw [hN]; omega⟩
  obtain ⟨-, h0, h1, h2⟩ := idx_core t
  have ht : t.val = 16 * (i 0).val + 15 := rfl
  refine ⟨t, (flush0_10 t).mpr (by omega), ?_⟩
  rw [mem_blk10]
  intro a
  match a with
  | ⟨0, _⟩ =>
    show win0_10.index t (0 : Fin 3) * 1 ≤ (i 0).val ∧ (i 0).val < win0_10.index t (0 : Fin 3) * 1 + 1
    omega
  | ⟨1, _⟩ =>
    show win0_10.index t (1 : Fin 3) * 512 ≤ (i 1).val ∧ (i 1).val < win0_10.index t (1 : Fin 3) * 512 + 512
    omega
  | ⟨2, _⟩ =>
    show win0_10.index t (2 : Fin 3) * 512 ≤ (i 2).val ∧ (i 2).val < win0_10.index t (2 : Fin 3) * 512 + 512
    omega

/-- THE TWO ACCUMULATOR ARRAYS after the run. -/
theorem final9 (c : Dev nD) : (dats m 0 c).arrAt 9 cfg0.N = G9 m c :=
  (dats m 0 c).arrAt_eq_of_cover 9 (G9 m c) (flushed9_eq m c) (cover9)

theorem final10 (c : Dev nD) : (dats m 0 c).arrAt 10 cfg0.N = G10 m c :=
  (dats m 0 c).arrAt_eq_of_cover 10 (G10 m c) (flushed10_eq m c) (cover10)

end Cert.Hebb.Arrays

end
-- ==== Proof.KernelRun.lean ====
/-
  The idealized kernel's run, read: its three results are the layer's functions of the argument arrays.

  The activation array is the region's first output, untouched by the host afterwards. The host then takes the two
  slabs of each accumulator array, adds them — the two cores' sums of Hebbian sums, together the Hebbian sum over all
  32768 rows — and applies the common update and row normalisation to the weight table.
-/
import proofs.«151966_j20761871909484_2_alg».proof.Proof.Arrays
import proofs.«151966_j20761871909484_2_alg».proof.Proof.Update
import proofs.«151966_j20761871909484_2_alg».proof.Proof.LibLeadUnit
import Idealize.ShloMosaic.Lib.StableHlo.Run

noncomputable section

open scoped BigOperators

namespace Cert.Hebb.Run

open Cert.KernelIdeal Cert.KernelIdeal.Gen
open Idealize.ShloMosaic Idealize.ShloMosaic.TcCoe Idealize.ShloMosaic.ValueIdx Idealize.SL.Sem
open Idealize.ShloMosaic.Pipeline (Dat)
open Cert.RmsNorm Cert.LayerNorm Cert.Hebb Cert.Hebb.Blocks Cert.Hebb.Inv Cert.Hebb.Arrays

variable (m : (ℓ : Loc nD τ sig) → Buf (Elt Ideal) ℓ) (ρ : Dev nD → PrngReg)

/-- The word of the row normalisation's floor (1e-12 rounded to f32), the same in both programs. -/
abbrev cF : BitVec 32 := 0x2B8CBCCC#32

/-! ## The host operations after the region, over any contents of the buffers they read -/

/-- The two slabs of an accumulator array, re-laid as matrices and added. -/
abbrev slabSum (P : S2x512x512.Idx → EReal) : FVec Ideal S512x512 .f32 :=
  addf (shapeCast S512x512 (extractStridedSlice S1x512x512 ![0, 0, 0] P slices_S2x512x512_S1x512x512_0_0_0) shapeCasts_S1x512x512_S512x512)
    (shapeCast S512x512 (extractStridedSlice S1x512x512 ![1, 0, 0] P slices_S2x512x512_S1x512x512_1_0_0) shapeCasts_S1x512x512_S512x512)

theorem slabSum_apply (P : S2x512x512.Idx → EReal) (i j : Fin 512) :
    slabSum P (ix2 i j) = P (ix3 (0 : Fin 2) i j) + P (ix3 (1 : Fin 2) i j) := by
  show shapeCast S512x512 (extractStridedSlice S1x512x512 ![0, 0, 0] P slices_S2x512x512_S1x512x512_0_0_0) shapeCasts_S1x512x512_S512x512 (ix2 i j)
    + shapeCast S512x512 (extractStridedSlice S1x512x512 ![1, 0, 0] P slices_S2x512x512_S1x512x512_1_0_0) shapeCasts_S1x512x512_S512x512 (ix2 i j) = _
  rw [Cert.LeadUnit.dropLead_apply (a := 512) (b := 512), Cert.LeadUnit.dropLead_apply (a := 512) (b := 512)]
  exact congrArg₂ (· + ·)
    (Cert.LeadUnit.sliceLead_apply (n := 2) (a := 512) (b := 512) P (0 : Fin 2) slices_S2x512x512_S1x512x512_0_0_0 0 i j)
    (Cert.LeadUnit.sliceLead_apply (n := 2) (a := 512) (b := 512) P (1 : Fin 2) slices_S2x512x512_S1x512x512_1_0_0 0 i j)

/-- The second result as the host computes it from whatever the buffers hold after the region. -/
theorem tail_v38_of (W : Valuation τ sig (Elt Ideal)) :
    StableHlo.after (hostOps1 (F := Ideal)) W (Proc.devRef .tc main_v38)
      = updated (K := 512) (N := 512) cF (W (Proc.devRef .tc main_arg2)) (W (Proc.devRef .tc main_arg4)) (W (Proc.devRef .tc main_arg5))
          (slabSum (W (Proc.devRef .tc main_v4_1))) bcast_S512_S1x512_1 bcast_S1x512_S512x512_0_1
          bcast_S512_S512x1_0 bcast_S512x1_S512x512_0_1 reducesTo_S512x512_S512_d1 h_S_ bcast_S_S512x1 := by
  after_results_simp
  rfl

/-- The third result likewise. -/
theorem tail_v46_of (W : Valuation τ sig (Elt Ideal)) :
    StableHlo.after (hostOps1 (F := Ideal)) W (Proc.devRef .tc main_v46)
      = updated (K := 512) (N := 512) cF (W (Proc.devRef .tc main_arg3)) (W (Proc.devRef .tc main_arg4)) (W (Proc.devRef .tc main_arg5))
          (slabSum (W (Proc.devRef .tc main_v4_2))) bcast_S512_S1x512_1 bcast_S1x512_S512x512_0_1
          bcast_S512_S512x1_0 bcast_S512x1_S512x512_0_1 reducesTo_S512x512_S512_d1 h_S_ bcast_S_S512x1 := by
  after_results_simp
  rfl

/-! ## What the buffers hold after the region -/

/-- The contents the host operations after the region start from. -/
abbrev afterRegion (c : Dev nD) : Valuation τ sig (Elt Ideal) :=
  Pipeline.withArrays cfg0.spec c (V0 m c) fun w => (dats m 0 c).arrAt w cfg0.N

theorem afterTail_eq (ops : List (HloOp τ sig (Elt Ideal))) (c : Dev nD) (b : Ref sig .tc) :
    Pipeline.afterTail₀ cfgs (dats m) 0 (V0 m) [ops] c b = StableHlo.after ops (afterRegion m c) (Proc.devRef .tc b) := by
  unfold Pipeline.afterTail₀
  simp only [List.flatten_cons, List.flatten_nil, List.append_nil]

theorem at_arg2 (c : Dev nD) : afterRegion m c (Proc.devRef .tc main_arg2) = m ((c : Thread nD τ).loc main_arg2) :=
  (Pipeline.withArrays_arr cfg0.spec launch0.win.arr_inj c _ _ 2).trans
    (((dats m 0 c).arrAt_in 2 rfl _).trans ((A_eq m c 2).trans (V_main_arg2 m c)))

theorem at_arg3 (c : Dev nD) : afterRegion m c (Proc.devRef .tc main_arg3) = m ((c : Thread nD τ).loc main_arg3) :=
  (Pipeline.withArrays_arr cfg0.spec launch0.win.arr_inj c _ _ 3).trans
    (((dats m 0 c).arrAt_in 3 rfl _).trans ((A_eq m c 3).trans (V_main_arg3 m c)))

theorem at_arg4 (c : Dev nD) : afterRegion m c (Proc.devRef .tc main_arg4) = m ((c : Thread nD τ).loc main_arg4) :=
  (Pipeline.withArrays_of_ne cfg0.spec c (V0 m c) _ main_arg4 (by decide)).trans (V_main_arg4 m c)

theorem at_arg5 (c : Dev nD) : afterRegion m c (Proc.devRef .tc main_arg5) = m ((c : Thread nD τ).loc main_arg5) :=
  (Pipeline.withArrays_of_ne cfg0.spec c (V0 m c) _ main_arg5 (by decide)).trans (V_main_arg5 m c)

theorem at_v4_1 (c : Dev nD) : afterRegion m c (Proc.devRef .tc main_v4_1) = G9 m c :=
  (Pipeline.withArrays_arr cfg0.spec launch0.win.arr_inj c _ _ 9).trans (final9 m c)

theorem at_v4_2 (c : Dev nD) : afterRegion m c (Proc.devRef .tc main_v4_2) = G10 m c :=
  (Pipeline.withArrays_arr cfg0.spec launch0.win.arr_inj c _ _ 10).trans (final10 m c)

/-- The two cores' slabs added are the Hebbian sum over all rows. -/
theorem slabSum_G9 (c : Dev nD) :
    slabSum (G9 m c) = hebbArr (R := 32768) (K := 512) (N := 512) (V m c main_arg0) (V m c main_arg2) := by
  funext idx
  obtain ⟨i, j, rfl⟩ : ∃ (i : Fin 512) (j : Fin 512), idx = ix2 i j := ⟨idx 0, idx 1, eq_ix2 idx⟩
  rw [slabSum_apply, hebbArr_ix2]
  show corePart 1024 _ _ 0 16 i j + corePart 1024 _ _ 16 16 i j = _
  exact coreParts_eq_total 16 1024 (by norm_num) _ _ i j

theorem slabSum_G10 (c : Dev nD) :
    slabSum (G10 m c) = hebbArr (R := 32768) (K := 512) (N := 512) (V m c main_arg1) (V m c main_arg3) := by
  funext idx
  obtain ⟨i, j, rfl⟩ : ∃ (i : Fin 512) (j : Fin 512), idx = ix2 i j := ⟨idx 0, idx 1, eq_ix2 idx⟩
  rw [slabSum_apply, hebbArr_ix2]
  show corePart 1024 _ _ 0 16 i j + corePart 1024 _ _ 16 16 i j = _
  exact coreParts_eq_total 16 1024 (by norm_num) _ _ i j

/-! ## The three results -/

/-- The specification's three arrays of the argument arrays at launch. -/
abbrev res0 (c : Dev nD) : S32768x512.Idx → EReal :=
  outArr (R := 32768) (K := 512) (N := 512) (m ((c : Thread nD τ).loc main_arg0)) (m ((c : Thread nD τ).loc main_arg1))
    (m ((c : Thread nD τ).loc main_arg2)) (m ((c : Thread nD τ).loc main_arg3))
    (m ((c : Thread nD τ).loc main_arg6)) (m ((c : Thread nD τ).loc main_arg7))
    (m ((c : Thread nD τ).loc main_arg8)) (m ((c : Thread nD τ).loc main_arg9))

abbrev res1 (c : Dev nD) : FVec Ideal S512x512 .f32 :=
  updated (K := 512) (N := 512) cF (m ((c : Thread nD τ).loc main_arg2)) (m ((c : Thread nD τ).loc main_arg4))
    (m ((c : Thread nD τ).loc main_arg5))
    (hebbArr (R := 32768) (K := 512) (N := 512) (m ((c : Thread nD τ).loc main_arg0)) (m ((c : Thread nD τ).loc main_arg2)))
    bcast_S512_S1x512_1 bcast_S1x512_S512x512_0_1 bcast_S512_S512x1_0 bcast_S512x1_S512x512_0_1 reducesTo_S512x512_S512_d1 h_S_
    bcast_S_S512x1

abbrev res2 (c : Dev nD) : FVec Ideal S512x512 .f32 :=
  updated (K := 512) (N := 512) cF (m ((c : Thread nD τ).loc main_arg3)) (m ((c : Thread nD τ).loc main_arg4))
    (m ((c : Thread nD τ).loc main_arg5))
    (hebbArr (R := 32768) (K := 512) (N := 512) (m ((c : Thread nD τ).loc main_arg1)) (m ((c : Thread nD τ).loc main_arg3)))
    bcast_S512_S1x512_1 bcast_S1x512_S512x512_0_1 bcast_S512_S512x1_0 bcast_S512x1_S512x512_0_1 reducesTo_S512x512_S512_d1 h_S_
    bcast_S_S512x1

theorem final8_args (c : Dev nD) : (dats m 0 c).arrAt 8 cfg0.N = res0 m c := by
  rw [final8]
  show outArr (V m c main_arg0) (V m c main_arg1) (V m c main_arg2) (V m c main_arg3) _ _ _ _ = _
  rw [V_main_arg0 m c, V_main_arg1 m c, V_main_arg2 m c, V_main_arg3 m c]

theorem tail_v38 (c : Dev nD) : Pipeline.afterTail₀ cfgs (dats m) 0 (V0 m) [hostOps1] c main_v38 = res1 m c := by
  rw [afterTail_eq, tail_v38_of, at_arg2, at_arg4, at_arg5, at_v4_1, slabSum_G9, V_main_arg0 m c, V_main_arg2 m c]

theorem tail_v46 (c : Dev nD) : Pipeline.afterTail₀ cfgs (dats m) 0 (V0 m) [hostOps1] c main_v46 = res2 m c := by
  rw [afterTail_eq, tail_v46_of, at_arg3, at_arg4, at_arg5, at_v4_2, slabSum_G10, V_main_arg1 m c, V_main_arg3 m c]

/-- THE RUN, READ: every weakly fair execution of the idealized kernel's @main terminates with the three results at the
    specification's arrays and the arguments unchanged. -/
theorem run : θ_run defs (onTc (τ := τ) (main (F := Ideal))) ⟨m, fun _ => 0, ρ⟩ fun r => ∀ c : Dev nD,
      r.2.mem ((c.tc : Thread nD τ).loc main_v4_0) = res0 m c
      ∧ r.2.mem ((c.tc : Thread nD τ).loc main_v38) = res1 m c
      ∧ r.2.mem ((c.tc : Thread nD τ).loc main_v46) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).1 8).trans (final8_args m c),
      ((h c).2 main_v38 (Pipeline.mem_restRefs_of main_v38 (by decide) (by decide))).trans (tail_v38 m c),
      ((h c).2 main_v46 (Pipeline.mem_restRefs_of main_v46 (by decide) (by decide))).trans (tail_v46 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.Hebb.Run

end
-- ==== Proof.lean ====
/-
  The certificate's claims, assembled.

  The layer: with stimulus rows x_b and previous-activation rows y_b (32768 batch rows of 512 entries), weight tables W and
  Wr, and two layer normalisations along the rows (mean subtracted, divided by the root of the variance plus a small
  offset, times a gain, plus a bias), the activation output is, row by row,

      LN_act( relu( x_b·W + LN_rec( y_b·Wr ) ) ),

  and each weight table is updated with its Hebbian sum over all rows, H(i, j) = Σ_b x_b(i) · (x_b·W)(j), as
  W + H · alpha − decay · W, every row then divided by the larger of its length and a small floor.

  The kernel computes the activation block by block (1024 rows per grid point: a row's output depends on that row
  alone), and lets each of two cores add up the Hebbian sums of its 16 blocks into its own slab, the host adding the two
  slabs afterwards; the reference contracts over all 32768 rows at once. On the extended reals a sum does not remember
  how it was split, so the two agree; no rounding is left at this instance (the narrower-format copies of the operands
  are the operands), and every other operation is the same on both sides, applied to the same values. Nothing needs the
  inputs to be finite: only commutativity and associativity of addition are used.

  The three frames are the generated ones (the reference's is its generated run with the results dropped); the
  idealization rewrote no operation, so what it must preserve is nothing.
-/
import proofs.«151966_j20761871909484_2_alg».proof.Defs
import proofs.«151966_j20761871909484_2_alg».proof.Proof.Gen.Kernel
import proofs.«151966_j20761871909484_2_alg».proof.Proof.Gen.Kernel.Skeleton
import proofs.«151966_j20761871909484_2_alg».proof.Proof.Gen.Kernel.Launch
import proofs.«151966_j20761871909484_2_alg».proof.Proof.Gen.Kernel.Points
import proofs.«151966_j20761871909484_2_alg».proof.Proof.Gen.Kernel.Frame
import proofs.«151966_j20761871909484_2_alg».proof.Proof.Gen.KernelIdeal
import proofs.«151966_j20761871909484_2_alg».proof.Proof.Gen.KernelIdeal.Skeleton
import proofs.«151966_j20761871909484_2_alg».proof.Proof.Gen.KernelIdeal.Launch
import proofs.«151966_j20761871909484_2_alg».proof.Proof.Gen.KernelIdeal.Points
import proofs.«151966_j20761871909484_2_alg».proof.Proof.Gen.KernelIdeal.Frame
import proofs.«151966_j20761871909484_2_alg».proof.Proof.Gen.ReferenceIdeal
import proofs.«151966_j20761871909484_2_alg».proof.Proof.Gen.Pre_finite_inputs
import proofs.«151966_j20761871909484_2_alg».proof.Proof.Gen.ReferenceIdeal.Run
import proofs.«151966_j20761871909484_2_alg».proof.Proof.Gen.ReferenceIdeal.Read
import proofs.«151966_j20761871909484_2_alg».proof.Proof.RefSide
import proofs.«151966_j20761871909484_2_alg».proof.Proof.KernelRun
import Idealize.ShloMosaic.Adequacy
import Idealize.ShloMosaic.Init

noncomputable section

namespace Cert.Proof

open Idealize.ShloMosaic Idealize.SL.Sem

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's generated run, its three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- On the extended reals the idealized kernel and the reference, run from memories that agree on the arguments, end
    with the same three arrays: the specification's activation array and the two updated weight tables. -/
theorem algebraic : Cert.algebraic_KernelIdeal_ReferenceIdeal := by
  intro m ρ m' ρ' _ hagree
  refine ⟨fun c => Cert.Hebb.Run.res0 m c, fun c => Cert.Hebb.Run.res1 m c, fun c => Cert.Hebb.Run.res2 m c,
    Cert.Hebb.Run.run m ρ, ?_⟩
  refine (θ_run Cert.ReferenceIdeal.defs _ _).mono (fun _ h c => ?_) (Cert.ReferenceIdeal.Value.run (F := Ideal) m' ρ')
  obtain ⟨h51, h72, h85, hargs⟩ := h c
  obtain ⟨a0, a1, a2, a3, a4, a5, a6, a7, a8, a9⟩ := hagree c
  refine ⟨?_, ?_, ?_, hargs⟩
  · refine h51.trans ((Cert.ReferenceIdeal.Read.val_main_v51_eq m' c).trans ((Cert.Hebb.Ref.v51_spec _ _ _ _ _ _ _ _).trans ?_))
    rw [a0, a1, a2, a3, a6, a7, a8, a9]
  · refine h72.trans ((Cert.ReferenceIdeal.Read.val_main_v72_eq _ _ _ _).trans ((Cert.Hebb.Ref.v72_spec _ _ _ _).trans ?_))
    rw [a0, a2, a4, a5]
  · refine h85.trans ((Cert.ReferenceIdeal.Read.val_main_v85_eq _ _ _ _).trans ((Cert.Hebb.Ref.v85_spec _ _ _ _).trans ?_))
    rw [a1, a3, a4, a5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
